-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2704x5 : Shape := ⟨3, ![2048, 2704, 5]⟩
abbrev S_ : Shape := ⟨0, ![]⟩

class Facts : Prop where
  bcast_S_S2048x2704x5 : S_.BroadcastsInDim S2048x2704x5 (![] : Fin 0 → Fin S2048x2704x5.rank)
  reducesTo_S2048x2704x5_S_d0_1_2 : S2048x2704x5.ReducesTo [0, 1, 2] S_
  h_S_ : 0 < S_.numel

variable [Facts]

def fn {F : FTy → Type} [FloatOps F] (main_arg0 : FVec F S2048x2704x5 .f32) (main_arg1 : FVec F S2048x2704x5 .f32) : IVec S_ 1 :=
  let main_v0 : FVec F S2048x2704x5 .f32 := Host.absf main_arg0
  let main_cst : FVec F S_ .f32 := constant S_ .f32 0x7F800000#32
  let main_v1 : FVec F S2048x2704x5 .f32 := broadcastInDim S2048x2704x5 ![] bcast_S_S2048x2704x5 main_cst
  let main_v2 : IVec S2048x2704x5 1 := cmpf .olt main_v0 main_v1
  let main_c : IVec S_ 1 := constantI S_ 1 1#1
  let main_v3 : IVec S_ 1 := (fun x v => Host.reduce IntOp.andi x v reducesTo_S2048x2704x5_S_d0_1_2 h_S_) main_v2 main_c
  let main_v4 : FVec F S2048x2704x5 .f32 := Host.absf main_arg1
  let main_cst_0 : FVec F S_ .f32 := constant S_ .f32 0x7F800000#32
  let main_v5 : FVec F S2048x2704x5 .f32 := broadcastInDim S2048x2704x5 ![] bcast_S_S2048x2704x5 main_cst_0
  let main_v6 : IVec S2048x2704x5 1 := cmpf .olt main_v4 main_v5
  let main_c_1 : IVec S_ 1 := constantI S_ 1 1#1
  let main_v7 : IVec S_ 1 := (fun x v => Host.reduce IntOp.andi x v reducesTo_S2048x2704x5_S_d0_1_2 h_S_) main_v6 main_c_1
  let main_v8 : IVec S_ 1 := andi main_v3 main_v7
  main_v8
-- ==== Kernel.lean ====
abbrev S2048x2704x5 : Shape := ⟨3, ![2048, 2704, 5]⟩
abbrev S16x1x4 : Shape := ⟨3, ![16, 1, 4]⟩
abbrev S128x16x5 : Shape := ⟨3, ![128, 16, 5]⟩
abbrev S1x1x4 : Shape := ⟨3, ![1, 1, 4]⟩
abbrev S1x1 : Shape := ⟨2, ![1, 1]⟩
abbrev S128x16x1 : Shape := ⟨3, ![128, 16, 1]⟩
abbrev S128x16 : Shape := ⟨2, ![128, 16]⟩
abbrev S128 : Shape := ⟨1, ![128]⟩
abbrev S128x1 : Shape := ⟨2, ![128, 1]⟩
abbrev S1 : Shape := ⟨1, ![1]⟩
abbrev S1x1x1 : Shape := ⟨3, ![1, 1, 1]⟩
abbrev S_ : Shape := ⟨0, ![]⟩
abbrev S4 : Shape := ⟨1, ![4]⟩

abbrev nBuf : Space → Nat
  | .hbm => 30
  | .vmem => 10
  | .smem => 0
  | _ => 0

abbrev bufTy : (tb : Table) → Fin (tcTables nBuf tb) → BufTy
  | .hbm, ⟨0, _⟩ => ⟨S2048x2704x5, .f32⟩
  | .hbm, ⟨1, _⟩ => ⟨S2048x2704x5, .f32⟩
  | .hbm, ⟨2, _⟩ => ⟨S16x1x4, .f32⟩
  | .hbm, ⟨3, _⟩ => ⟨S_, .f32⟩
  | .hbm, ⟨4, _⟩ => ⟨S4, .f32⟩
  | .hbm, ⟨5, _⟩ => ⟨S1, .f32⟩
  | .hbm, ⟨6, _⟩ => ⟨S_, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S128x16x5, .f32⟩
  | .local _ .vmem, ⟨1, _⟩ => ⟨S128x16x5, .f32⟩
  | .local _ .vmem, ⟨2, _⟩ => ⟨S128x16x5, .f32⟩
  | .local _ .vmem, ⟨3, _⟩ => ⟨S128x16x5, .f32⟩
  | .local _ .vmem, ⟨4, _⟩ => ⟨S1x1x4, .f32⟩
  | .local _ .vmem, ⟨5, _⟩ => ⟨S1x1x4, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S2048x2704x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 169], ![false, false]⟩

def k0_cond2 (i : grid0.Coords) : BitVec 1 :=
  let arg1 : BitVec 32 := BitVec.ofNat 32 (i 1).val
  let c168_i32 : BitVec 32 := 168#32
  let v98 : BitVec 1 := Scalar.cmpi .eq arg1 c168_i32
  let v99 : BitVec 32 := Scalar.extui v98
  let c0_i32_58 : BitVec 32 := 0#32
  let v100 : BitVec 1 := Scalar.cmpi .ne v99 c0_i32_58
  v100

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x16x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x16x5_S128x16x1_0_0_0 : ∀ a, (![0, 0, 0] : Fin 3 → Nat) a + S128x16x1.size a ≤ S128x16x5.size a
  h_S128x16x1 : 0 < S128x16x1.numel
  shapeCasts_S128x16x1_S128x16 : S128x16x1.ShapeCasts S128x16
  natLt_1_32 : 1 < 32
  inb_S128x16x5_S128x16x1_0_0_1 : ∀ a, (![0, 0, 1] : Fin 3 → Nat) a + S128x16x1.size a ≤ S128x16x5.size a
  inb_S128x16x5_S128x16x1_0_0_2 : ∀ a, (![0, 0, 2] : Fin 3 → Nat) a + S128x16x1.size a ≤ S128x16x5.size a
  inb_S128x16x5_S128x16x1_0_0_3 : ∀ a, (![0, 0, 3] : Fin 3 → Nat) a + S128x16x1.size a ≤ S128x16x5.size a
  inb_S128x16x5_S128x16x1_0_0_4 : ∀ a, (![0, 0, 4] : Fin 3 → Nat) a + S128x16x1.size a ≤ S128x16x5.size a
  reduces_S128x16_S128 : S128x16.Reduces [1] S128
  shapeCasts_S128_S128x1 : S128.ShapeCasts S128x1
  reduces_S128x1_S1 : S128x1.Reduces [0] S1
  shapeCasts_S1_S1x1 : S1.ShapeCasts S1x1
  shapeCasts_S1x1_S1x1x1 : S1x1.ShapeCasts S1x1x1
  inb_S1x1x4_S1x1x1_0_0_0 : ∀ a, (![0, 0, 0] : Fin 3 → Nat) a + S1x1x1.size a ≤ S1x1x4.size a
  h_S1x1x1 : 0 < S1x1x1.numel
  inb_S1x1x4_S1x1x1_0_0_1 : ∀ a, (![0, 0, 1] : Fin 3 → Nat) a + S1x1x1.size a ≤ S1x1x4.size a
  inb_S1x1x4_S1x1x1_0_0_2 : ∀ a, (![0, 0, 2] : Fin 3 → Nat) a + S1x1x1.size a ≤ S1x1x4.size a
  inb_S1x1x4_S1x1x1_0_0_3 : ∀ a, (![0, 0, 3] : Fin 3 → Nat) a + S1x1x1.size a ≤ S1x1x4.size a
  reducesTo_S16x1x4_S4_d0_1 : S16x1x4.ReducesTo [0, 1] S4
  h_S_ : 0 < S_.numel
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16x5.size a ≤ S2048x2704x5.size a
  hwx0_0 : ∀ i : grid0.Coords, EltTy.bits .f32 = 32 ∨ (Rect.block (s := S2048x2704x5) S128x16x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16x5.size a ≤ S2048x2704x5.size a
  hwx0_1 : ∀ i : grid0.Coords, EltTy.bits .f32 = 32 ∨ (Rect.block (s := S2048x2704x5) S128x16x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4.size a ≤ S16x1x4.size a
  hwx0_2 : ∀ i : grid0.Coords, EltTy.bits .f32 = 32 ∨ (Rect.block (s := S16x1x4) S1x1x4.size (cc0_transform_2 i) (hinb0_2 i)).WholeWords (EltTy.packing .f32)

variable [Facts₀]

abbrev win0_0 : Pipeline.Window sig grid0 :=
  Pipeline.Window.ofSpec (Memref.whole main_arg0) S128x16x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048x2704x5 : Shape := ⟨3, ![2048, 2704, 5]⟩
abbrev S2048x2704x1 : Shape := ⟨3, ![2048, 2704, 1]⟩
abbrev S2048x2704 : Shape := ⟨2, ![2048, 2704]⟩
abbrev S_ : Shape := ⟨0, ![]⟩
abbrev S2048x2704x4 : Shape := ⟨3, ![2048, 2704, 4]⟩

abbrev nBuf : Space → Nat
  | .hbm => 69
  | .vmem => 0
  | .smem => 0
  | _ => 0

abbrev bufTy : (tb : Table) → Fin (tcTables nBuf tb) → BufTy
  | .hbm, ⟨0, _⟩ => ⟨S2048x2704x5, .f32⟩
  | .hbm, ⟨1, _⟩ => ⟨S2048x2704x5, .f32⟩
  | .hbm, ⟨2, _⟩ => ⟨S2048x2704x1, .f32⟩
  | .hbm, ⟨3, _⟩ => ⟨S2048x2704, .f32⟩
  | .hbm, ⟨4, _⟩ => ⟨S_, .f32⟩
  | .hbm, ⟨5, _⟩ => ⟨S2048x2704, .f32⟩
  | .hbm, ⟨6, _⟩ => ⟨S2048x2704, .i1⟩
  | .hbm, ⟨7, _⟩ => ⟨S2048x2704, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2048x2704, .f32⟩
  | .hbm, ⟨12, _⟩ => ⟨S2048x2704, .f32⟩
  | .hbm, ⟨13, _⟩ => ⟨S_, .f32⟩
  | .hbm, ⟨14, _⟩ => ⟨S_, .f32⟩
  | .hbm, ⟨15, _⟩ => ⟨S2048x2704x4, .f32⟩
  | .hbm, ⟨16, _⟩ => ⟨S2048x2704x4, .f32⟩
  | .hbm, ⟨17, _⟩ => ⟨S2048x2704x4, .f32⟩
  | .hbm, ⟨18, _⟩ => ⟨S2048x2704x4, .f32⟩
  | .hbm, ⟨19, _⟩ => ⟨S_, .f32⟩
  | .hbm, ⟨20, _⟩ => ⟨S2048x2704, .f32⟩
  | .hbm, ⟨21, _⟩ => ⟨S2048x2704, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2048x2704x1, .f32⟩
  | .hbm, ⟨28, _⟩ => ⟨S2048x2704, .f32⟩
  | .hbm, ⟨29, _⟩ => ⟨S2048x2704x1, .f32⟩
  | .hbm, ⟨30, _⟩ => ⟨S2048x2704, .f32⟩
  | .hbm, ⟨31, _⟩ => ⟨S2048x2704, .f32⟩
  | .hbm, ⟨32, _⟩ => ⟨S_, .f32⟩
  | .hbm, ⟨33, _⟩ => ⟨S2048x2704, .f32⟩
  | .hbm, ⟨34, _⟩ => ⟨S2048x2704, .f32⟩
  | .hbm, ⟨35, _⟩ => ⟨S2048x2704, .f32⟩
  | .hbm, ⟨36, _⟩ => ⟨S2048x2704, .f32⟩
  | .hbm, ⟨37, _⟩ => ⟨S_, .f32⟩
  | .hbm, ⟨38, _⟩ => ⟨S2048x2704, .f32⟩
  | .hbm, ⟨39, _⟩ => ⟨S2048x2704, .f32⟩
  | .hbm, ⟨40, _⟩ => ⟨S2048x2704, .f32⟩
  | .hbm, ⟨41, _⟩ => ⟨S_, .f32⟩
  | .hbm, ⟨42, _⟩ => ⟨S2048x2704, .f32⟩
  | .hbm, ⟨43, _⟩ => ⟨S2048x2704, .f32⟩
  | .hbm, ⟨44, _⟩ => ⟨S2048x2704, .f32⟩
  | .hbm, ⟨45, _⟩ => ⟨S2048x2704, .f32⟩
  | .hbm, ⟨46, _⟩ => ⟨S2048x2704, .f32⟩
  | .hbm, ⟨47, _⟩ => ⟨S2048x2704, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S2048x2704, .f32⟩
  | .hbm, ⟨53, _⟩ => ⟨S2048x2704, .f32⟩
  | .hbm, ⟨54, _⟩ => ⟨S2048x2704, .f32⟩
  | .hbm, ⟨55, _⟩ => ⟨S2048x2704, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S2048x2704x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_cst_10 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_cst_12 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_14 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  slices_S2048x2704x5_S2048x2704x1_0_0_0 : S2048x2704x5.Slices ![0, 0, 0] S2048x2704x1
  shapeCasts_S2048x2704x1_S2048x2704 : S2048x2704x1.ShapeCasts S2048x2704
  bcast_S_S2048x2704 : S_.BroadcastsInDim S2048x2704 (![] : Fin 0 → Fin S2048x2704.rank)
  reducesTo_S2048x2704_S_d0_1 : S2048x2704.ReducesTo [0, 1] S_
  h_S_ : 0 < S_.numel
  slices_S2048x2704x5_S2048x2704x4_0_0_1 : S2048x2704x5.Slices ![0, 0, 1] S2048x2704x4
  reducesTo_S2048x2704x4_S2048x2704_d2 : S2048x2704x4.ReducesTo [2] S2048x2704

variable [Facts₀]

class Facts : Prop extends Facts₀ where

variable [Facts]
-- ==== Proof.Pieces.lean ====
/-
  What the kernel body leaves in its four one-entry accumulators and in its output block, per control case, as
  values — at any float instance.
  The body has three cases along the cell-tile axis of the grid: the first tile of a batch tile (the accumulators are
  zeroed, then updated), a middle tile (updated), the last tile (updated, then copied into the four entries of the
  output block). An update adds one tile's partial sum to the accumulator: `updFace`, `updBox`, `updBce`, `updBg`
  name the four updates as functions of the tile's two input blocks and the accumulator's previous contents.
-/
import proofs.«177025_j38285338476689_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl

/-! ## The five channels of an input block, as the body loads them -/

def ch0 (x : Vec F S128x16x5 .f32) : Vec F S128x16x1 .f32 := View.ld x (Rect.unit ![0, 0, 0] ![128, 16, 1] inb_S128x16x5_S128x16x1_0_0_0)
def ch1 (x : Vec F S128x16x5 .f32) : Vec F S128x16x1 .f32 := View.ld x (Rect.unit ![0, 0, 1] ![128, 16, 1] inb_S128x16x5_S128x16x1_0_0_1)
def ch2 (x : Vec F S128x16x5 .f32) : Vec F S128x16x1 .f32 := View.ld x (Rect.unit ![0, 0, 2] ![128, 16, 1] inb_S128x16x5_S128x16x1_0_0_2)
def ch3 (x : Vec F S128x16x5 .f32) : Vec F S128x16x1 .f32 := View.ld x (Rect.unit ![0, 0, 3] ![128, 16, 1] inb_S128x16x5_S128x16x1_0_0_3)
def ch4 (x : Vec F S128x16x5 .f32) : Vec F S128x16x1 .f32 := View.ld x (Rect.unit ![0, 0, 4] ![128, 16, 1] inb_S128x16x5_S128x16x1_0_0_4)

/-! ## The four updates -/

/-- The face-count accumulator after a tile: its previous contents plus the tile's number of face cells. -/
def updFace (x1 : Vec F S128x16x5 .f32) (s : Vec F S1x1 .f32) : Vec F S1x1 .f32 :=
  k0_pay1 (k0_pay20 (k0_pay15 (ch0 x1))) s

/-- The box-error accumulator after a tile: plus the tile's squared box error over its face cells. -/
def updBox (x0 x1 : Vec F S128x16x5 .f32) (s : Vec F S1x1 .f32) : Vec F S1x1 .f32 :=
  k0_pay2 (k0_pay21 (k0_pay15 (ch0 x1)) (k0_pay16 (ch1 x0) (ch1 x1) (ch2 x0) (ch2 x1)) (k0_pay17 (ch3 x0)) (ch3 x1)
    (ch4 x0) (ch4 x1)) s

/-- The cross-entropy accumulator after a tile: plus the tile's cross-entropy over its face cells. -/
def updBce (x0 x1 : Vec F S128x16x5 .f32) (s : Vec F S1x1 .f32) : Vec F S1x1 .f32 :=
  k0_pay3 (k0_pay22 (k0_pay13 (ch0 x0)) (k0_pay14 (ch0 x1)) (k0_pay15 (ch0 x1))) s

/-- The background accumulator after a tile: plus the tile's background term over its other cells. -/
def updBg (x0 x1 : Vec F S128x16x5 .f32) (s : Vec F S1x1 .f32) : Vec F S1x1 .f32 :=
  k0_pay4 (k0_pay19 (k0_pay13 (ch0 x0)) (k0_pay15 (ch0 x1))) s

/-- The zero the first tile stores into every accumulator. -/
abbrev zero11 : Vec F S1x1 .f32 := broadcast S1x1 (Scalar.ofBits .f32 0x00000000#32)

theorem pay9_eq : (k0_pay9 : FVec F S1x1 .f32) = zero11 := shapeCast_self _ _
theorem pay10_eq : (k0_pay10 : FVec F S1x1 .f32) = zero11 := shapeCast_self _ _
theorem pay11_eq : (k0_pay11 : FVec F S1x1 .f32) = zero11 := shapeCast_self _ _
theorem pay12_eq : (k0_pay12 : FVec F S1x1 .f32) = zero11 := shapeCast_self _ _

/-! ## A middle tile: each accumulator is updated -/

/-- A middle tile leaves the face count accumulator updated. -/
theorem soutB_0 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 : Vec F S128x16x5 .f32) (xs0 xs1 xs2 xs3 : Vec F S1x1 .f32) :
    sout0_B_0 c i arg2 harg2 arg3 harg3 arg4 harg4 arg5 harg5 arg6 harg6 arg7 harg7 arg8 harg8 hc0 hc1 x0 x1 xs0 xs1 xs2 xs3 = updFace x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, View.ld_unit_zero (S := S1x1) hz2]
  rfl

/-- A middle tile leaves the box error accumulator updated. -/
theorem soutB_1 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 : Vec F S128x16x5 .f32) (xs0 xs1 xs2 xs3 : Vec F S1x1 .f32) :
    sout0_B_1 c i arg2 harg2 arg3 harg3 arg4 harg4 arg5 harg5 arg6 harg6 arg7 harg7 arg8 harg8 hc0 hc1 x0 x1 xs0 xs1 xs2 xs3 = updBox x0 x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, View.ld_unit_zero (S := S1x1) hz2]
  rfl

/-- A middle tile leaves the cross-entropy accumulator updated. -/
theorem soutB_2 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 : Vec F S128x16x5 .f32) (xs0 xs1 xs2 xs3 : Vec F S1x1 .f32) :
    sout0_B_2 c i arg2 harg2 arg3 harg3 arg4 harg4 arg5 harg5 arg6 harg6 arg7 harg7 arg8 harg8 hc0 hc1 x0 x1 xs0 xs1 xs2 xs3 = updBce x0 x1 xs2 := by
  unfold sout0_B_2
  rw [View.read_writes_eq_canon _ _ _ (scover0_B_2 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, View.ld_unit_zero (S := S1x1) hz2]
  rfl

/-- A middle tile leaves the background term accumulator updated. -/
theorem soutB_3 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 : Vec F S128x16x5 .f32) (xs0 xs1 xs2 xs3 : Vec F S1x1 .f32) :
    sout0_B_3 c i arg2 harg2 arg3 harg3 arg4 harg4 arg5 harg5 arg6 harg6 arg7 harg7 arg8 harg8 hc0 hc1 x0 x1 xs0 xs1 xs2 xs3 = updBg x0 x1 xs3 := by
  unfold sout0_B_3
  rw [View.read_writes_eq_canon _ _ _ (scover0_B_3 c i arg2 harg2 arg3 harg3 arg4 harg4 arg5 harg5 arg6 harg6 arg7 harg7 arg8 harg8 hc0 hc1 x0 x1 xs0 xs1 xs2 xs3)]
  unfold kernelRun0_B
  dsimp only
  sl_unfold_words
  rw [View.canon_unit_zero hz2]
  simp only [View.readAt_eq_ld, harg2.read_unread, harg3.read_unread, harg5.read_unread, harg6.read_unread, harg7.read_unread, harg8.read_unread, View.ld_unit_zero (S := S1x1) hz2]
  rfl

/-! ## The last tile: each accumulator is updated, and the output block gets the four updated entries -/

/-- The last tile leaves the face count accumulator updated. -/
theorem soutC_0 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S128x16x5 .f32) (xs0 xs1 xs2 xs3 : Vec F S1x1 .f32) :
    sout0_C_0 c i arg2 harg2 arg3 harg3 arg4 harg4 arg5 harg5 arg6 harg6 arg7 harg7 arg8 harg8 hc0 hc1 x0 x1 xs0 xs1 xs2 xs3 = updFace x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, View.ld_unit_zero (S := S1x1) hz2]
  rfl

/-- The last tile leaves the box error accumulator updated. -/
theorem soutC_1 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S128x16x5 .f32) (xs0 xs1 xs2 xs3 : Vec F S1x1 .f32) :
    sout0_C_1 c i arg2 harg2 arg3 harg3 arg4 harg4 arg5 harg5 arg6 harg6 arg7 harg7 arg8 harg8 hc0 hc1 x0 x1 xs0 xs1 xs2 xs3 = updBox x0 x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, View.ld_unit_zero (S := S1x1) hz2]
  rfl

/-- The last tile leaves the cross-entropy accumulator updated. -/
theorem soutC_2 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S128x16x5 .f32) (xs0 xs1 xs2 xs3 : Vec F S1x1 .f32) :
    sout0_C_2 c i arg2 harg2 arg3 harg3 arg4 harg4 arg5 harg5 arg6 harg6 arg7 harg7 arg8 harg8 hc0 hc1 x0 x1 xs0 xs1 xs2 xs3 = updBce x0 x1 xs2 := by
  unfold sout0_C_2
  rw [View.read_writes_eq_canon _ _ _ (scover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, View.ld_unit_zero (S := S1x1) hz2]
  rfl

/-- The last tile leaves the background term accumulator updated. -/
theorem soutC_3 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S128x16x5 .f32) (xs0 xs1 xs2 xs3 : Vec F S1x1 .f32) :
    sout0_C_3 c i arg2 harg2 arg3 harg3 arg4 harg4 arg5 harg5 arg6 harg6 arg7 harg7 arg8 harg8 hc0 hc1 x0 x1 xs0 xs1 xs2 xs3 = updBg x0 x1 xs3 := by
  unfold sout0_C_3
  rw [View.read_writes_eq_canon _ _ _ (scover0_C_3 c i arg2 harg2 arg3 harg3 arg4 harg4 arg5 harg5 arg6 harg6 arg7 harg7 arg8 harg8 hc0 hc1 x0 x1 xs0 xs1 xs2 xs3)]
  unfold kernelRun0_C
  dsimp only
  sl_unfold_words
  rw [View.canon_unit_zero hz2]
  simp only [View.readAt_eq_ld, harg2.read_unread, harg3.read_unread, harg5.read_unread, harg6.read_unread, harg7.read_unread, harg8.read_unread, View.ld_unit_zero (S := S1x1) hz2]
  rfl

/-- The output block after the last tile: four one-entry stores, entry `k` the `k`-th updated accumulator recast to
    `[1, 1, 1]`. -/
theorem outC (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 : Vec F S128x16x5 .f32) (xs0 xs1 xs2 xs3 : Vec F S1x1 .f32) :
    out0_C_2 c i arg2 harg2 arg3 harg3 arg4 harg4 arg5 harg5 arg6 harg6 arg7 harg7 arg8 harg8 hc0 hc1 x0 x1 xs0 xs1 xs2 xs3
      = View.canon
          [⟨Rect.unit ![0, 0, 3] ![1, 1, 1] inb_S1x1x4_S1x1x1_0_0_3, k0_pay8 (updBg x0 x1 xs3)⟩,
           ⟨Rect.unit ![0, 0, 2] ![1, 1, 1] inb_S1x1x4_S1x1x1_0_0_2, k0_pay7 (updBce x0 x1 xs2)⟩,
           ⟨Rect.unit ![0, 0, 1] ![1, 1, 1] inb_S1x1x4_S1x1x1_0_0_1, k0_pay6 (updBox x0 x1 xs1)⟩,
           ⟨Rect.unit ![0, 0, 0] ![1, 1, 1] inb_S1x1x4_S1x1x1_0_0_0, k0_pay5 (updFace x1 xs0)⟩] := by
  unfold out0_C_2
  rw [View.read_writes_eq_canon _ _ _ (cover0_C_2 c i arg2 harg2 arg3 harg3 arg4 harg4 arg5 harg5 arg6 harg6 arg7 harg7 arg8 harg8 hc0 hc1 x0 x1 xs0 xs1 xs2 xs3)]
  unfold kernelRun0_C
  dsimp only
  sl_unfold_words
  simp only [View.readCov_unit_zero (S := S1x1) _ hz2, View.readAt_eq_ld, harg2.read_unread, harg3.read_unread, harg5.read_unread, harg6.read_unread, harg7.read_unread, harg8.read_unread, View.ld_unit_zero (S := S1x1) hz2]
  rfl

/-! ## The first tile: each accumulator is zeroed, then updated -/

/-- The first tile leaves the face count accumulator at the update of zero. -/
theorem soutA_0 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 : Vec F S128x16x5 .f32) :
    sout0_A_0 c i arg2 harg2 arg3 harg3 arg4 harg4 arg5 harg5 arg6 harg6 arg7 harg7 arg8 harg8 hc0 hc1 x0 x1 = updFace x1 zero11 := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x1) hz2]
  simp only [View.readCov_unit_zero (S := S1x1) _ hz2, View.readAt_eq_ld, harg2.read_unread, harg3.read_unread, View.ld_unit_zero (S := S1x1) hz2, pay9_eq, pay10_eq, pay11_eq, pay12_eq]
  rfl

/-- The first tile leaves the box error accumulator at the update of zero. -/
theorem soutA_1 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 : Vec F S128x16x5 .f32) :
    sout0_A_1 c i arg2 harg2 arg3 harg3 arg4 harg4 arg5 harg5 arg6 harg6 arg7 harg7 arg8 harg8 hc0 hc1 x0 x1 = updBox x0 x1 zero11 := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x1) hz2]
  simp only [View.readCov_unit_zero (S := S1x1) _ hz2, View.readAt_eq_ld, harg2.read_unread, harg3.read_unread, View.ld_unit_zero (S := S1x1) hz2, pay9_eq, pay10_eq, pay11_eq, pay12_eq]
  rfl

/-- The first tile leaves the cross-entropy accumulator at the update of zero. -/
theorem soutA_2 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 : Vec F S128x16x5 .f32) :
    sout0_A_2 c i arg2 harg2 arg3 harg3 arg4 harg4 arg5 harg5 arg6 harg6 arg7 harg7 arg8 harg8 hc0 hc1 x0 x1 = updBce x0 x1 zero11 := by
  unfold sout0_A_2
  rw [View.read_writes_eq_canon _ _ _ (scover0_A_2 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x1) hz2]
  simp only [View.readCov_unit_zero (S := S1x1) _ hz2, View.readAt_eq_ld, harg2.read_unread, harg3.read_unread, View.ld_unit_zero (S := S1x1) hz2, pay9_eq, pay10_eq, pay11_eq, pay12_eq]
  rfl

/-- The first tile leaves the background term accumulator at the update of zero. -/
theorem soutA_3 (c : Dev nD) (i : grid0.Coords) (arg2 : Memref sig .tc .vmem S128x16x5 .f32) (harg2 : arg2.IsWhole) (arg3 : Memref sig .tc .vmem S128x16x5 .f32) (harg3 : arg3.IsWhole) (arg4 : Memref sig .tc .vmem S1x1x4 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 : Vec F S128x16x5 .f32) :
    sout0_A_3 c i arg2 harg2 arg3 harg3 arg4 harg4 arg5 harg5 arg6 harg6 arg7 harg7 arg8 harg8 hc0 hc1 x0 x1 = updBg x0 x1 zero11 := by
  unfold sout0_A_3
  rw [View.read_writes_eq_canon _ _ _ (scover0_A_3 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x1) hz2]
  simp only [View.readCov_unit_zero (S := S1x1) _ hz2, View.readAt_eq_ld, harg2.read_unread, harg3.read_unread, View.ld_unit_zero (S := S1x1) hz2, pay9_eq, pay10_eq, pay11_eq, pay12_eq]
  rfl

end Cert.KernelIdeal.Pieces

end
-- ==== Proof.LibKeepdims.lean ====
/-
  Layout steps and single-axis reductions of small-rank arrays read at an index given by coordinates — a general
  module: every lemma is general in the extents, and the layout lemmas in the element type.
  Layout:
  • `shapeCast_a_a1_apply`: a vector recast as a column, `[a] → [a, 1]`, at `(i, u)` is the vector at `i`;
  • `broadcastTo_a1_ab_apply`: a column broadcast across the lanes, `[a, 1] → [a, b]`, at `(i, j)` is the column at `(i, 0)`;
  • `broadcastTo_11_ab_apply`: a one-entry matrix broadcast to `[a, b]` reads its one entry everywhere;
  • `shapeCast_ab_a1b_apply`: a matrix given a middle unit axis, `[a, b] → [a, 1, b]`, at `(i, u, k)` is the matrix at `(i, k)`;
  • `broadcastTo_a1c_abc_apply`: `[a, 1, c] → [a, b, c]` at `(i, j, k)` is the operand at `(i, 0, k)`.
  Reductions over one axis, at the exact values: the source index over a result index with coordinate `k` on the reduced
  axis (`lift_last_ab`, `lift_last_abc`, `lift_mid_abc`), and with them
  • `multiReduction_add_last_ab`, `multiReduction_add_last_abc`, `multiReduction_add_mid_abc`: an add reduction read as the
    sum over the reduced coordinate;
  • `multiReduction_max_last_abc`: a maximum reduction along the last axis read as the fold of `max` from the accumulator.
-/
import Idealize.ShloMosaic.Lib.Pipeline.Value
import Idealize.ShloMosaic.Lib.ValueIdx
import Idealize.ShloMosaic.Lib.ValueLayout
import Idealize.ShloMosaic.PureOps.Reduce
import Idealize.ShloMosaic.PureOps.Ideal.Laws

namespace Cert.LibKeepdims

open Idealize.ShloMosaic Idealize.ShloMosaic.ValueIdx

section Layout
variable {α : Type}

/-- A vector recast as a column reads, at `(i, u)`, its entry `i`: the unit axis contributes nothing to the row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast across the lanes reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- A one-entry matrix broadcast to `[a, b]` reads its one entry at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ =>
    show (0 : ℕ) = if (1 : ℕ) = 1 then 0 else i.val
    rw [if_pos rfl]
  | ⟨1, _⟩ =>
    show (0 : ℕ) = if (1 : ℕ) = 1 then 0 else j.val
    rw [if_pos rfl]

/-- A matrix given a middle unit axis reads, at `(i, u, k)`, the matrix at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

end Layout

section Lift

/-- Reducing `[a, b]` over its last axis: over the result index `i`, coordinate `k` on the reduced axis is `(i, k)`. -/
theorem lift_last_ab {a b : ℕ} (h : (⟨2, ![a, b]⟩ : Shape).Reduces [1] ⟨1, ![a]⟩) (i : Fin a) (k : Fin b) :
    h.lift (ix1 i) k = ix2 i k := by
  funext ax
  apply Fin.ext
  match ax with
  | ⟨0, _⟩ => rfl
  | ⟨1, _⟩ => rfl

/-- Reducing `[a, b, c]` over its last axis: over `(i, j)`, coordinate `k` on the reduced axis is `(i, j, k)`. -/
theorem lift_last_abc {a b c : ℕ} (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Reducing `[a, b, c]` over its middle axis: over `(i, k)`, coordinate `j` on the reduced axis is `(i, j, k)`. -/
theorem lift_mid_abc {a b c : ℕ} (h : (⟨3, ![a, b, c]⟩ : Shape).Reduces [1] ⟨2, ![a, c]⟩) (i : Fin a) (k : Fin c) (j : Fin b) :
    h.lift (ix2 i k) j = ix3 i j k := by
  funext ax
  apply Fin.ext
  match ax with
  | ⟨0, _⟩ => rfl
  | ⟨1, _⟩ => rfl
  | ⟨2, _⟩ => rfl

end Lift

section Reductions
variable {φ : FTy}

/-- An add reduction of `[a, b]` along its last axis, at the exact values, read at `i`: the row's sum. -/
theorem multiReduction_add_last_ab {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last_ab h i k))

/-- An add reduction of `[a, b, c]` along its last axis, at the exact values, read at `(i, j)`. -/
theorem multiReduction_add_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last_abc h i j k))

/-- An add reduction of `[a, b, c]` along its middle axis, at the exact values, read at `(i, k)`. -/
theorem multiReduction_add_mid_abc {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) :=
  (Ideal.multiReduction_add_single src acc h hφ hacc (ix2 i k)).trans
    (Finset.sum_congr rfl fun j _ => congrArg src (lift_mid_abc h i k j))

/-- A maximum reduction of `[a, b, c]` along its last axis, at the exact values, read at `(i, j)`: the fold of `max` from
    the accumulator's value over the row. -/
theorem multiReduction_max_last_abc {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) (fun k => src (ix3 i j k)) :=
  (Ideal.multiReduction_maximumf_single src acc h hφ hacc (ix2 i j)).trans
    (congrArg (fun f => (Finset.univ : Finset (Fin c)).fold max (Ideal.ofBits φ acc) f)
      (funext fun k => congrArg src (lift_last_abc h i j k)))

end Reductions

end Cert.LibKeepdims
-- ==== Proof.LibTileSum.lean ====
/-
  The total of an `[a, b]` tile taken in two keepdims steps, read at the exact values — a general module: every lemma
  is general in the extents, and the layout lemmas in the element type.
  • `shapeCast_ab1_ab_apply`: an `[a, b, 1]` array recast to `[a, b]`, at `(i, j)`, is the array at `(i, j, 0)`;
  • `lift_first_a1`, `multiReduction_add_first_a1`: an add reduction of a column `[a, 1]` along its first axis is the
    sum of the column's entries;
  • `col_total`: a vector `[a]` recast as a column, the column summed, the result recast to `[1, 1]`: its one entry is
    the sum of the vector's entries;
  • `tile_total`: the lanes summed row by row (`[a, b] → [a]`), the row sums recast as a column (`[a] → [a, 1]`),
    the column summed (`[a, 1] → [1]`) and the result recast to `[1, 1]`: its one entry is `∑ i, ∑ j` of the tile.
-/
import proofs.«177025_j38285338476689_2_alg».proof.Proof.LibKeepdims

namespace Cert.LibTileSum

open Idealize.ShloMosaic Idealize.ShloMosaic.ValueIdx

section Layout
variable {α : Type}

/-- An `[a, b, 1]` array recast to `[a, b]` reads, at `(i, j)`, the array at `(i, j, 0)`: the unit axis contributes
    nothing to the row-major position. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Layout

section Reductions
variable {φ : FTy}

/-- Reducing a column `[a, 1]` over its first axis: over the one result index, coordinate `k` on the reduced axis is
    `(k, 0)`. -/
theorem lift_first_a1 {a : ℕ} (h : (⟨2, ![a, 1]⟩ : Shape).Reduces [0] ⟨1, ![1]⟩) (u : Fin 1) (k : Fin a) :
    h.lift (ix1 u) k = ix2 k u := by
  funext ax
  apply Fin.ext
  match ax with
  | ⟨0, _⟩ => rfl
  | ⟨1, _⟩ => rfl

/-- An add reduction of a column `[a, 1]` along its first axis, at the exact values: the sum of its entries. -/
theorem multiReduction_add_first_a1 {a : ℕ} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ k : Fin a, src (ix2 k u) :=
  (Ideal.multiReduction_add_single src acc h hφ hacc (ix1 u)).trans
    (Finset.sum_congr rfl fun k _ => congrArg src (lift_first_a1 h u k))

/-- A vector recast as a column, the column summed along its first axis, the result recast to `[1, 1]`: the one entry is
    the sum of the vector's entries. -/
theorem col_total {a : ℕ} (v : FVec Ideal ⟨1, ![a]⟩ φ) (acc : BitVec φ.bits)
    (hc1 : (⟨1, ![a]⟩ : Shape).ShapeCasts ⟨2, ![a, 1]⟩)
    (h2 : (⟨2, ![a, 1]⟩ : Shape).Reduces [0] ⟨1, ![1]⟩) (hc2 : (⟨1, ![1]⟩ : Shape).ShapeCasts ⟨2, ![1, 1]⟩)
    (hφ : FKind.Formats φ) (hacc : acc = FKind.add.neutral φ hφ) (u w : Fin 1) :
    shapeCast ⟨2, ![1, 1]⟩ (multiReduction .add [0] ⟨1, ![1]⟩ (shapeCast ⟨2, ![a, 1]⟩ v hc1) acc h2 hφ hacc) hc2 (ix2 u w)
      = ∑ i : Fin a, v (ix1 i) := by
  rw [Cert.LibKeepdims.shapeCast_a_a1_apply, multiReduction_add_first_a1]
  refine Finset.sum_congr rfl fun i _ => ?_
  rw [Cert.LibKeepdims.shapeCast_a_a1_apply]

/-- The total of a tile in two keepdims steps — each row's lanes summed, the row sums as a column, the column summed,
    the result as a `[1, 1]` array — is, at its one entry, the sum over the rows of the sums over the lanes. -/
theorem tile_total {a b : ℕ} (v : FVec Ideal ⟨2, ![a, b]⟩ φ) (acc1 acc2 : BitVec φ.bits)
    (h1 : (⟨2, ![a, b]⟩ : Shape).Reduces [1] ⟨1, ![a]⟩) (hc1 : (⟨1, ![a]⟩ : Shape).ShapeCasts ⟨2, ![a, 1]⟩)
    (h2 : (⟨2, ![a, 1]⟩ : Shape).Reduces [0] ⟨1, ![1]⟩) (hc2 : (⟨1, ![1]⟩ : Shape).ShapeCasts ⟨2, ![1, 1]⟩)
    (hφ : FKind.Formats φ) (hacc1 : acc1 = FKind.add.neutral φ hφ) (hacc2 : acc2 = FKind.add.neutral φ hφ) (u w : Fin 1) :
    shapeCast ⟨2, ![1, 1]⟩
        (multiReduction .add [0] ⟨1, ![1]⟩
          (shapeCast ⟨2, ![a, 1]⟩ (multiReduction .add [1] ⟨1, ![a]⟩ v acc1 h1 hφ hacc1) hc1) acc2 h2 hφ hacc2) hc2 (ix2 u w)
      = ∑ i : Fin a, ∑ j : Fin b, v (ix2 i j) := by
  rw [Cert.LibKeepdims.shapeCast_a_a1_apply, multiReduction_add_first_a1]
  refine Finset.sum_congr rfl fun i _ => ?_
  rw [Cert.LibKeepdims.shapeCast_a_a1_apply, Cert.LibKeepdims.multiReduction_add_last_ab]

end Reductions

end Cert.LibTileSum
-- ==== Proof.Consts.lean ====
/-
  The f32 constants of the two programs that the proof has to evaluate, as the extended reals their bit patterns
  denote: `1.0` is the real 1 and `5537792.0` (= 2048 · 2704, the number of cells) is the real 5537792. (The
  pattern of `+0.0` is evaluated by the library.)
-/
import Idealize.ShloMosaic.PureOps.Ideal

noncomputable section

namespace Cert.Bridge.Consts

open Idealize.ShloMosaic

/-- `1.0` denotes the real number one. -/
theorem ofBits_one : Ideal.ofBits .f32 0x3F800000#32 = ((1 : ℝ) : EReal) := by
  simp [Ideal.ofBits, Ideal.ieee, -EReal.coe_mul]; norm_num

/-- `5537792.0`, the cell count 2048 · 2704 = 2^15 · 169 (exact in f32), denotes the real number 5537792. -/
theorem ofBits_cells : Ideal.ofBits .f32 0x4AA90000#32 = ((5537792 : ℝ) : EReal) := by
  simp [Ideal.ofBits, Ideal.ieee, -EReal.coe_mul]; norm_num

end Cert.Bridge.Consts

end
-- ==== Proof.Spec.lean ====
/-
  The loss both programs compute, as one function of the two argument arrays `x`, `y : [2048, 2704, 5]` over the
  extended reals. A cell is a pair `(b, c)`; channel 0 of `x` is the predicted confidence, channel 0 of `y` the label
  confidence, channels 1 … 4 the box coordinates.
  • the face indicator of a cell is 1 where the label confidence exceeds 1/2, else 0 (`faceR`, a real number);
  • `faceTot` is the number of face cells, `boxTot` the squared box error summed over the face cells, `bceTot` the
    clamped binary cross-entropy summed over the face cells, `bgTot` the clamped background term `-log (1 - conf)`
    summed over the other cells;
  • `loss` combines the four totals and the number of background cells;
  • `G` is the loss with the background count written as (number of cells) − (number of face cells).
  The one law used between the two programs is `bg_count`: summing `1 − indicator` over all cells gives the number
  of cells minus the number of face cells, because every indicator is a real number (0 or 1) — a finite sum of
  reals, where subtraction distributes.
-/
import Idealize.ShloMosaic.PureOps.Ideal.Laws
import Idealize.ShloMosaic.Lib.ValueIdx
import proofs.«177025_j38285338476689_2_alg».proof.Proof.Consts

noncomputable section

namespace Cert.Bridge.Spec

open Idealize.ShloMosaic Idealize.ShloMosaic.ValueIdx
open scoped BigOperators

/-- The shape of both arguments. -/
abbrev SX : Shape := ⟨3, ![2048, 2704, 5]⟩

/-! ## One cell -/

/-- Is a label confidence above 1/2? -/
def faceBit (t : EReal) : BitVec 1 := Ideal.cmp .ogt t (Ideal.ofBits .f32 0x3F000000#32)

/-- The face indicator of a label confidence: the real number 1 above 1/2, else 0. -/
def faceR (t : EReal) : ℝ := ((faceBit t).toNat : ℝ)

/-- The clamped logarithm of a confidence: `max (log c) (-100)`. -/
def logC (c : EReal) : EReal := max (Ideal.log c) (Ideal.ofBits .f32 0xC2C80000#32)

/-- The clamped logarithm of the complement: `max (log (1 + (-c))) (-100)`. -/
def logNC (c : EReal) : EReal := max (Ideal.log1p (-c)) (Ideal.ofBits .f32 0xC2C80000#32)

/-- The binary cross-entropy of a predicted confidence `c` against a label `t`. -/
def bceCell (c t : EReal) : EReal :=
  -(t * logC c + (Ideal.ofBits .f32 0x3F800000#32 - t) * logNC c)

/-- The background term of a cell: `(1 − indicator) · (−log (1 − c))`. -/
def bgCell (c t : EReal) : EReal :=
  (Ideal.ofBits .f32 0x3F800000#32 - ((faceR t : ℝ) : EReal)) * -(logNC c)

/-- The square of a difference. -/
def sq (a b : EReal) : EReal := (a - b) * (a - b)

/-- The sum of four squared differences. -/
def box4 (a1 b1 a2 b2 a3 b3 a4 b4 : EReal) : EReal := sq a1 b1 + sq a2 b2 + sq a3 b3 + sq a4 b4

/-- The squared box error of cell `(b, c)`: the four box channels. -/
def boxCell (x y : SX.Idx → EReal) (b : Fin 2048) (c : Fin 2704) : EReal :=
  box4 (x (ix3 b c 1)) (y (ix3 b c 1)) (x (ix3 b c 2)) (y (ix3 b c 2)) (x (ix3 b c 3)) (y (ix3 b c 3))
    (x (ix3 b c 4)) (y (ix3 b c 4))

/-! ## The four per-cell summands and their totals -/

def faceAt (y : SX.Idx → EReal) (b : Fin 2048) (c : Fin 2704) : EReal := ((faceR (y (ix3 b c 0)) : ℝ) : EReal)
def boxAt (x y : SX.Idx → EReal) (b : Fin 2048) (c : Fin 2704) : EReal := faceAt y b c * boxCell x y b c
def bceAt (x y : SX.Idx → EReal) (b : Fin 2048) (c : Fin 2704) : EReal :=
  faceAt y b c * bceCell (x (ix3 b c 0)) (y (ix3 b c 0))
def bgAt (x y : SX.Idx → EReal) (b : Fin 2048) (c : Fin 2704) : EReal := bgCell (x (ix3 b c 0)) (y (ix3 b c 0))

/-- The sum of a per-cell quantity over all cells. -/
def tot (f : Fin 2048 → Fin 2704 → EReal) : EReal := ∑ b : Fin 2048, ∑ c : Fin 2704, f b c

/-- The loss from the four totals and the background count. -/
def loss (face box bce bg bgnum : EReal) : EReal :=
  (Ideal.ofBits .f32 0x3F800000#32 + Ideal.div (Ideal.ofBits .f32 0x3F800000#32) face)
      * Ideal.div box (Ideal.ofBits .f32 0x40800000#32 * face)
    + (Ideal.ofBits .f32 0x3F800000#32 + Ideal.div (Ideal.ofBits .f32 0x3F800000#32) face) * Ideal.div bce face
    + Ideal.ofBits .f32 0x3F800000#32 * Ideal.div bg bgnum

/-- The loss of the two arrays, the background count as cells minus faces. -/
def G (x y : SX.Idx → EReal) : EReal :=
  loss (tot (faceAt y)) (tot (boxAt x y)) (tot (bceAt x y)) (tot (bgAt x y))
    (Ideal.ofBits .f32 0x4AA90000#32 - tot (faceAt y))

/-! ## The background count -/

/-- A finite sum of real numbers, read in the extended reals, is the real sum. -/
theorem coe_sum {ι : Type*} (s : Finset ι) (r : ι → ℝ) :
    ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- Summing `1 − r` over a finite family of real numbers `r` gives the size of the family minus the sum of the
    `r`: subtraction distributes over a finite sum of reals. -/
theorem sum_one_sub {ι : Type*} [Fintype ι] (r : ι → ℝ) :
    ∑ i, (((1 : ℝ) : EReal) - ((r i : ℝ) : EReal)) = ((Fintype.card ι : ℝ) : EReal) - ∑ i, ((r i : ℝ) : EReal) := by
  have h : ∀ i, ((1 : ℝ) : EReal) - ((r i : ℝ) : EReal) = (((1 - r i : ℝ)) : EReal) := fun i => (EReal.coe_sub 1 (r i)).symm
  rw [Finset.sum_congr rfl fun i _ => h i, coe_sum, coe_sum, ← EReal.coe_sub, Finset.sum_sub_distrib, Finset.sum_const,
    Finset.card_univ, nsmul_eq_mul, mul_one]

/-- The background count: `1 − indicator` summed over all cells is the number of cells minus the number of face
    cells. -/
theorem bg_count (y : SX.Idx → EReal) :
    tot (fun b c => Ideal.ofBits .f32 0x3F800000#32 - faceAt y b c) = Ideal.ofBits .f32 0x4AA90000#32 - tot (faceAt y) := by
  unfold tot faceAt
  rw [Consts.ofBits_one, Consts.ofBits_cells, ← Fintype.sum_prod_type', ← Fintype.sum_prod_type',
    sum_one_sub (fun p : Fin 2048 × Fin 2704 => faceR (y (ix3 p.1 p.2 0)))]
  have hcard : ((Fintype.card (Fin 2048 × Fin 2704) : ℕ) : ℝ) = 5537792 := by
    rw [Fintype.card_prod, Fintype.card_fin, Fintype.card_fin]; norm_num
  rw [hcard]

end Cert.Bridge.Spec

end
-- ==== Proof.TileValues.lean ====
/-
  One tile's contribution to each accumulator, at the exact values.
  A tile is a pair of input blocks `x0`, `x1 : [128, 16, 5]` (128 batch rows, 16 cells, 5 channels) of the two
  arguments. Each update of Pieces.lean adds to the accumulator's one entry the sum, over the tile's 128 · 16 cells,
  of the per-cell quantity of Spec.lean: the face indicator (`tFace`), the indicator times the squared box error
  (`tBox`), the indicator times the cross-entropy (`tBce`), the background term (`tBg`). The kernel forms each sum
  in two steps (lanes, then sublanes); its negations are `0 − a`, and its running box error starts from `0`.
-/
import proofs.«177025_j38285338476689_2_alg».proof.Proof.Pieces
import proofs.«177025_j38285338476689_2_alg».proof.Proof.LibTileSum
import proofs.«177025_j38285338476689_2_alg».proof.Proof.Spec

noncomputable section

open Idealize.ShloMosaic Idealize.ShloMosaic.ValueIdx

namespace Cert.Bridge.Tile

open Cert.KernelIdeal Cert.KernelIdeal.Gen Cert.KernelIdeal.Pieces Cert.Bridge.Spec Cert.LibTileSum Cert.LibKeepdims
open scoped BigOperators

/-! ## Reading a loaded channel, and the face indicator -/

/-- Channel `o` of a block, as the body loads it (a `[128, 16, 1]` slab at offset `(0, 0, o)`), at `(r, l, 0)` is the
    block at `(r, l, o)`. -/
theorem ld_chan (x : Vec Ideal S128x16x5 .f32) (o : ℕ) (ho : o < 5)
    (inb : ∀ a, (![0, 0, o] : Fin 3 → ℕ) a + (![128, 16, 1] : Fin 3 → ℕ) a ≤ S128x16x5.size a)
    (r : Fin 128) (l : Fin 16) (u : Fin 1) :
    View.ld x (Rect.unit ![0, 0, o] ![128, 16, 1] inb) (ix3 r l u) = x (ix3 r l ⟨o, ho⟩) := by
  refine congrArg x (funext fun a => Fin.ext ?_)
  have hu : u.val = 0 := by omega
  match a with
  | ⟨0, _⟩ => show 0 + 1 * r.val = r.val; omega
  | ⟨1, _⟩ => show 0 + 1 * l.val = l.val; omega
  | ⟨2, _⟩ => show o + 1 * u.val = o; omega

theorem ch0_apply (x : Vec Ideal S128x16x5 .f32) (r : Fin 128) (l : Fin 16) (u : Fin 1) : ch0 x (ix3 r l u) = x (ix3 r l 0) :=
  by unfold ch0; exact ld_chan x 0 (by omega) _ r l u
theorem ch1_apply (x : Vec Ideal S128x16x5 .f32) (r : Fin 128) (l : Fin 16) (u : Fin 1) : ch1 x (ix3 r l u) = x (ix3 r l 1) :=
  by unfold ch1; exact ld_chan x 1 (by omega) _ r l u
theorem ch2_apply (x : Vec Ideal S128x16x5 .f32) (r : Fin 128) (l : Fin 16) (u : Fin 1) : ch2 x (ix3 r l u) = x (ix3 r l 2) :=
  by unfold ch2; exact ld_chan x 2 (by omega) _ r l u
theorem ch3_apply (x : Vec Ideal S128x16x5 .f32) (r : Fin 128) (l : Fin 16) (u : Fin 1) : ch3 x (ix3 r l u) = x (ix3 r l 3) :=
  by unfold ch3; exact ld_chan x 3 (by omega) _ r l u
theorem ch4_apply (x : Vec Ideal S128x16x5 .f32) (r : Fin 128) (l : Fin 16) (u : Fin 1) : ch4 x (ix3 r l u) = x (ix3 r l 4) :=
  by unfold ch4; exact ld_chan x 4 (by omega) _ r l u

/-- The logarithm of a vector, read at an index. -/
theorem log_apply {s : Shape} (v : FVec Ideal s .f32) (i : s.Idx) : log v i = Ideal.log (v i) := rfl

/-- A scalar float literal at the exact values is the extended real its pattern denotes. -/
theorem scalar_ofBits (b : BitVec 32) : Scalar.ofBits (F := Ideal) .f32 b = Ideal.ofBits .f32 b := rfl

/-- One bit widened to 32 bits and read as a signed integer is the bit's own value, 0 or 1. -/
theorem sitofp_ext_bit (b : BitVec 1) :
    FloatOps.sitofp (F := Ideal) .f32 (b.setWidth 32) = (((b.toNat : ℕ) : ℝ) : EReal) := by
  show ((((b.setWidth 32).toInt : ℤ) : ℝ) : EReal) = _
  have h : (b.setWidth 32).toInt = ((b.toNat : ℕ) : ℤ) := by
    by_cases h1 : b = 1#1
    · subst h1; decide
    · obtain rfl := eq_zero_of_ne_one h1; decide
  rw [h, Int.cast_natCast]

/-- The kernel's face indicator of a tile (compare above 1/2, widen, convert) at cell `(r, l)`. -/
theorem mask_apply (x1 : Vec Ideal S128x16x5 .f32) (r : Fin 128) (l : Fin 16) :
    k0_pay15 (ch0 x1) (ix2 r l) = ((faceR (x1 (ix3 r l 0)) : ℝ) : EReal) := by
  unfold k0_pay15 k0_pay14
  show FloatOps.sitofp (F := Ideal) .f32 ((FloatOps.cmpf (F := Ideal) .ogt
    (shapeCast S128x16 (ch0 x1) shapeCasts_S128x16x1_S128x16 (ix2 r l)) (Ideal.ofBits .f32 0x3F000000#32)).setWidth 32) = _
  rw [shapeCast_ab1_ab_apply, ch0_apply]
  exact sitofp_ext_bit _

/-- The label confidence of a tile at cell `(r, l)`. -/
theorem label_apply (x1 : Vec Ideal S128x16x5 .f32) (r : Fin 128) (l : Fin 16) :
    k0_pay14 (ch0 x1) (ix2 r l) = x1 (ix3 r l 0) := by
  unfold k0_pay14
  show shapeCast S128x16 (ch0 x1) shapeCasts_S128x16x1_S128x16 (ix2 r l) = _
  rw [shapeCast_ab1_ab_apply, ch0_apply]

/-- The predicted confidence of a tile at cell `(r, l)`. -/
theorem conf_apply (x0 : Vec Ideal S128x16x5 .f32) (r : Fin 128) (l : Fin 16) :
    k0_pay13 (ch0 x0) (ix2 r l) = x0 (ix3 r l 0) := by
  unfold k0_pay13
  show shapeCast S128x16 (ch0 x0) shapeCasts_S128x16x1_S128x16 (ix2 r l) = _
  rw [shapeCast_ab1_ab_apply, ch0_apply]

/-! ## The four partial sums of a tile -/

def tFace (x1 : Vec Ideal S128x16x5 .f32) : EReal :=
  ∑ r : Fin 128, ∑ l : Fin 16, ((faceR (x1 (ix3 r l 0)) : ℝ) : EReal)

def tBox (x0 x1 : Vec Ideal S128x16x5 .f32) : EReal :=
  ∑ r : Fin 128, ∑ l : Fin 16, ((faceR (x1 (ix3 r l 0)) : ℝ) : EReal)
    * box4 (x0 (ix3 r l 1)) (x1 (ix3 r l 1)) (x0 (ix3 r l 2)) (x1 (ix3 r l 2)) (x0 (ix3 r l 3)) (x1 (ix3 r l 3))
        (x0 (ix3 r l 4)) (x1 (ix3 r l 4))

def tBce (x0 x1 : Vec Ideal S128x16x5 .f32) : EReal :=
  ∑ r : Fin 128, ∑ l : Fin 16, ((faceR (x1 (ix3 r l 0)) : ℝ) : EReal) * bceCell (x0 (ix3 r l 0)) (x1 (ix3 r l 0))

def tBg (x0 x1 : Vec Ideal S128x16x5 .f32) : EReal :=
  ∑ r : Fin 128, ∑ l : Fin 16, bgCell (x0 (ix3 r l 0)) (x1 (ix3 r l 0))

/-! ## The four updates add the tile's partial sums -/

/-- The face-count update adds the tile's number of face cells. -/
theorem updFace_apply (x1 : Vec Ideal S128x16x5 .f32) (s : Vec Ideal S1x1 .f32) :
    updFace x1 s (ix2 0 0) = s (ix2 0 0) + tFace x1 := by
  simp only [updFace, k0_pay1, k0_pay20, shapeCast_self]
  rw [addf_apply]
  refine congrArg (s (ix2 0 0) + ·) ((tile_total _ _ _ _ _ _ _ _ _ _ 0 0).trans ?_)
  exact Finset.sum_congr rfl fun r _ => Finset.sum_congr rfl fun l _ => mask_apply x1 r l

/-- The box-error update adds the tile's squared box error over its face cells. The kernel's running error starts from
    zero and adds the four squares in channel order. -/
theorem updBox_apply (x0 x1 : Vec Ideal S128x16x5 .f32) (s : Vec Ideal S1x1 .f32) :
    updBox x0 x1 s (ix2 0 0) = s (ix2 0 0) + tBox x0 x1 := by
  simp only [updBox, k0_pay2, k0_pay21, shapeCast_self]
  rw [addf_apply]
  refine congrArg (s (ix2 0 0) + ·) ((tile_total _ _ _ _ _ _ _ _ _ _ 0 0).trans ?_)
  refine Finset.sum_congr rfl fun r _ => Finset.sum_congr rfl fun l _ => ?_
  simp only [mulf_apply, addf_apply, subf_apply, k0_pay16, k0_pay17, broadcast_apply, shapeCast_ab1_ab_apply, ch1_apply,
    ch2_apply, ch3_apply, ch4_apply, mask_apply, scalar_ofBits, Ideal.ofBits_zero_f32, zero_add, box4, Spec.sq]

/-- The clamped logarithm of the complement, as the kernel forms it (`0 − c` for the negation), at a cell. -/
theorem logNC_apply (v4 : FVec Ideal S128x16 .f32) (i : S128x16.Idx) : k0_pay18 v4 i = logNC (v4 i) := by
  unfold k0_pay18 logNC
  show max (Ideal.log1p (Ideal.ofBits .f32 0x00000000#32 - v4 i)) (Ideal.ofBits .f32 0xC2C80000#32) = _
  rw [Ideal.ofBits_zero_f32, zero_sub]

/-- The cross-entropy update adds the tile's cross-entropy over its face cells. -/
theorem updBce_apply (x0 x1 : Vec Ideal S128x16x5 .f32) (s : Vec Ideal S1x1 .f32) :
    updBce x0 x1 s (ix2 0 0) = s (ix2 0 0) + tBce x0 x1 := by
  simp only [updBce, k0_pay3, shapeCast_self]
  rw [addf_apply]
  refine congrArg (s (ix2 0 0) + ·) ((col_total _ _ _ _ _ _ _ 0 0).trans ?_)
  refine Finset.sum_congr rfl fun r _ => ?_
  unfold k0_pay22
  refine (multiReduction_add_last_ab _ _ _ _ _ r).trans (Finset.sum_congr rfl fun l _ => ?_)
  simp only [mulf_apply, addf_apply, subf_apply, maximumf_apply, broadcast_apply, log_apply, logNC_apply, conf_apply, label_apply,
    mask_apply, scalar_ofBits, Ideal.ofBits_zero_f32, zero_sub, bceCell, logC]

/-- The background update adds the tile's background term. -/
theorem updBg_apply (x0 x1 : Vec Ideal S128x16x5 .f32) (s : Vec Ideal S1x1 .f32) :
    updBg x0 x1 s (ix2 0 0) = s (ix2 0 0) + tBg x0 x1 := by
  simp only [updBg, k0_pay4, shapeCast_self]
  rw [addf_apply]
  refine congrArg (s (ix2 0 0) + ·) ((tile_total _ _ _ _ _ _ _ _ _ _ 0 0).trans ?_)
  refine Finset.sum_congr rfl fun r _ => Finset.sum_congr rfl fun l _ => ?_
  simp only [k0_pay19, mulf_apply, subf_apply, broadcast_apply, logNC_apply, conf_apply, mask_apply, scalar_ofBits,
    Ideal.ofBits_zero_f32, zero_sub, bgCell]

end Cert.Bridge.Tile

end
-- ==== Proof.Accum.lean ====
/-
  The four accumulators along the grid, at the exact values.
  The grid runs over 16 batch tiles times 169 cell tiles, the cell tiles innermost; point `n` is cell tile `n % 169` of
  batch tile `n / 169`. After point `n` each accumulator's one entry holds the sum of its per-tile partial sums over the
  cell tiles `0 … n % 169` of the current batch tile (`acc_eq`, by induction on the point: the first cell tile zeroes
  and adds, every later one adds). At the last cell tile the four entries are also copied into the output block
  (`out_last`).
-/
import proofs.«177025_j38285338476689_2_alg».proof.Proof.TileValues

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Pieces Cert.Bridge.Tile Cert.Bridge.Spec
open scoped BigOperators

variable (m : (ℓ : Loc nD τ sig) → Buf (Elt Ideal) ℓ)

/-- The two input blocks of grid point `t`. -/
abbrev B0 (c : Dev nD) (t : Fin cfg0.N) : Vec Ideal S128x16x5 .f32 := iblk m c 0 t
abbrev B1 (c : Dev nD) (t : Fin cfg0.N) : Vec Ideal S128x16x5 .f32 := iblk m c 1 t

/-- What the point before `t` left. -/
abbrev prev (c : Dev nD) (t : Fin cfg0.N) :=
  outsAt0 m c (t.val - 1) (Nat.lt_of_le_of_lt (Nat.sub_le _ _) t.isLt)

/-- The zero block's one entry is zero. -/
theorem zero11_apply : (zero11 : Vec Ideal S1x1 .f32) (ix2 0 0) = 0 := Ideal.ofBits_zero_f32

/-! ## One grid point -/

/-- At the first cell tile of a batch tile each accumulator ends at its tile's partial sum. -/
theorem step_first (c : Dev nD) (t : Fin cfg0.N) (h0 : t.val % 169 = 0) :
    (outsAt0 m c t.val t.isLt).2.1 (ix2 0 0) = tFace (B1 m c t) ∧
    (outsAt0 m c t.val t.isLt).2.2.1 (ix2 0 0) = tBox (B0 m c t) (B1 m c t) ∧
    (outsAt0 m c t.val t.isLt).2.2.2.1 (ix2 0 0) = tBce (B0 m c t) (B1 m c t) ∧
    (outsAt0 m c t.val t.isLt).2.2.2.2 (ix2 0 0) = tBg (B0 m c t) (B1 m c t) := by
  have h1 : ¬t.val % 169 = 168 := by omega
  rw [outsAt0_A m c t h0 h1]
  refine ⟨?_, ?_, ?_, ?_⟩
  · refine ((congrFun (soutA_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (B0 m c t) (B1 m c t)) (ix2 0 0)).trans (updFace_apply (B1 m c t) zero11)).trans ?_
    rw [zero11_apply, zero_add]
  · refine ((congrFun (soutA_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (B0 m c t) (B1 m c t)) (ix2 0 0)).trans (updBox_apply (B0 m c t) (B1 m c t) zero11)).trans ?_
    rw [zero11_apply, zero_add]
  · refine ((congrFun (soutA_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (B0 m c t) (B1 m c t)) (ix2 0 0)).trans (updBce_apply (B0 m c t) (B1 m c t) zero11)).trans ?_
    rw [zero11_apply, zero_add]
  · refine ((congrFun (soutA_3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (B0 m c t) (B1 m c t)) (ix2 0 0)).trans (updBg_apply (B0 m c t) (B1 m c t) zero11)).trans ?_
    rw [zero11_apply, zero_add]

/-- At every later cell tile each accumulator gains its tile's partial sum. -/
theorem step_next (c : Dev nD) (t : Fin cfg0.N) (h0 : ¬t.val % 169 = 0) :
    (outsAt0 m c t.val t.isLt).2.1 (ix2 0 0) = (prev m c t).2.1 (ix2 0 0) + tFace (B1 m c t) ∧
    (outsAt0 m c t.val t.isLt).2.2.1 (ix2 0 0) = (prev m c t).2.2.1 (ix2 0 0) + tBox (B0 m c t) (B1 m c t) ∧
    (outsAt0 m c t.val t.isLt).2.2.2.1 (ix2 0 0) = (prev m c t).2.2.2.1 (ix2 0 0) + tBce (B0 m c t) (B1 m c t) ∧
    (outsAt0 m c t.val t.isLt).2.2.2.2 (ix2 0 0) = (prev m c t).2.2.2.2 (ix2 0 0) + tBg (B0 m c t) (B1 m c t) := by
  by_cases h1 : t.val % 169 = 168
  · rw [outsAt0_C m c t h0 h1]
    exact ⟨(congrFun (soutC_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2) (ix2 0 0)).trans (updFace_apply (B1 m c t) (prev m c t).2.1),
      (congrFun (soutC_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2) (ix2 0 0)).trans (updBox_apply (B0 m c t) (B1 m c t) (prev m c t).2.2.1),
      (congrFun (soutC_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2) (ix2 0 0)).trans (updBce_apply (B0 m c t) (B1 m c t) (prev m c t).2.2.2.1),
      (congrFun (soutC_3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2) (ix2 0 0)).trans (updBg_apply (B0 m c t) (B1 m c t) (prev m c t).2.2.2.2)⟩
  · rw [outsAt0_B m c t h0 h1]
    exact ⟨(congrFun (soutB_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (B0 m c t) (B1 m c t) (prev m c t).2.1 (prev m c t).2.2.1 (prev m c t).2.2.2.1 (prev m c t).2.2.2.2) (ix2 0 0)).trans (updFace_apply (B1 m c t) (prev m c t).2.1),
      (congrFun (soutB_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (B0 m c t) (B1 m c t) (prev m c t).2.1 (prev m c t).2.2.1 (prev m c t).2.2.2.1 (prev m c t).2.2.2.2) (ix2 0 0)).trans (updBox_apply (B0 m c t) (B1 m c t) (prev m c t).2.2.1),
      (congrFun (soutB_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (B0 m c t) (B1 m c t) (prev m c t).2.1 (prev m c t).2.2.1 (prev m c t).2.2.2.1 (prev m c t).2.2.2.2) (ix2 0 0)).trans (updBce_apply (B0 m c t) (B1 m c t) (prev m c t).2.2.2.1),
      (congrFun (soutB_3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (B0 m c t) (B1 m c t) (prev m c t).2.1 (prev m c t).2.2.1 (prev m c t).2.2.2.1 (prev m c t).2.2.2.2) (ix2 0 0)).trans (updBg_apply (B0 m c t) (B1 m c t) (prev m c t).2.2.2.2)⟩

/-! ## The output block at the last cell tile -/

/-- Entry `o` of a `[1, 1, 4]` block is where the one-entry rectangle at offset `(0, 0, o)` puts its entry. -/
theorem emb_entry (o : ℕ) (ho : o < 4) (inb : ∀ a, (![0, 0, o] : Fin 3 → ℕ) a + (![1, 1, 1] : Fin 3 → ℕ) a ≤ S1x1x4.size a) :
    (Rect.unit ![0, 0, o] ![1, 1, 1] inb).emb (ix3 (0 : Fin 1) (0 : Fin 1) (0 : Fin 1)) = ix3 (0 : Fin 1) (0 : Fin 1) (⟨o, ho⟩ : Fin 4) := by
  funext a
  apply Fin.ext
  match a with
  | ⟨0, _⟩ => rfl
  | ⟨1, _⟩ => rfl
  | ⟨2, _⟩ => show o + 1 * 0 = o; omega

/-- An entry below offset `o` is outside the one-entry rectangle at offset `(0, 0, o)`. -/
theorem not_mem_entry (o k : ℕ) (hk : k < 4) (hlt : k < o)
    (inb : ∀ a, (![0, 0, o] : Fin 3 → ℕ) a + (![1, 1, 1] : Fin 3 → ℕ) a ≤ S1x1x4.size a) :
    ix3 (0 : Fin 1) (0 : Fin 1) (⟨k, hk⟩ : Fin 4) ∉ (Rect.unit ![0, 0, o] ![1, 1, 1] inb).set := by
  rw [Rect.mem_set_unit]
  intro h
  have h2 : o ≤ k := (h 2).1
  omega

/-- The last store of a list of one-entry stores, at offset `(0, 0, o)`, decides entry `o`. -/
theorem canon_hit {Val : EltTy → Type} [∀ e, Nonempty (Val e)] (o : ℕ) (ho : o < 4)
    (inb : ∀ a, (![0, 0, o] : Fin 3 → ℕ) a + (![1, 1, 1] : Fin 3 → ℕ) a ≤ S1x1x4.size a)
    (w : S1x1x1.Idx → Val .f32) (L : List (View.Piece Val S1x1x4 .f32)) :
    View.canon (⟨Rect.unit ![0, 0, o] ![1, 1, 1] inb, w⟩ :: L) (ix3 (0 : Fin 1) (0 : Fin 1) (⟨o, ho⟩ : Fin 4))
      = w (ix3 (0 : Fin 1) (0 : Fin 1) (0 : Fin 1)) := by
  rw [← emb_entry o ho inb]
  exact View.canon_cons_emb (Rect.unit ![0, 0, o] ![1, 1, 1] inb) w L _

/-- … and leaves every entry below `o` to the earlier stores. -/
theorem canon_miss {Val : EltTy → Type} [∀ e, Nonempty (Val e)] (o k : ℕ) (hk : k < 4) (hlt : k < o)
    (inb : ∀ a, (![0, 0, o] : Fin 3 → ℕ) a + (![1, 1, 1] : Fin 3 → ℕ) a ≤ S1x1x4.size a)
    (w : S1x1x1.Idx → Val .f32) (L : List (View.Piece Val S1x1x4 .f32)) :
    View.canon (⟨Rect.unit ![0, 0, o] ![1, 1, 1] inb, w⟩ :: L) (ix3 (0 : Fin 1) (0 : Fin 1) (⟨k, hk⟩ : Fin 4))
      = View.canon L (ix3 (0 : Fin 1) (0 : Fin 1) (⟨k, hk⟩ : Fin 4)) :=
  View.canon_cons_of_not_mem (⟨Rect.unit ![0, 0, o] ![1, 1, 1] inb, w⟩ : View.Piece Val S1x1x4 .f32) L (not_mem_entry o k hk hlt inb)

/-- Four one-entry stores at offsets 0 … 3 of a `[1, 1, 4]` block, the later offsets stored later: entry `k` is the
    `k`-th store's value. -/
theorem canon4 {Val : EltTy → Type} [∀ e, Nonempty (Val e)] (w0 w1 w2 w3 : S1x1x1.Idx → Val .f32) :
    View.canon (Val := Val) [⟨Rect.unit ![0, 0, 3] ![1, 1, 1] inb_S1x1x4_S1x1x1_0_0_3, w3⟩, ⟨Rect.unit ![0, 0, 2] ![1, 1, 1] inb_S1x1x4_S1x1x1_0_0_2, w2⟩, ⟨Rect.unit ![0, 0, 1] ![1, 1, 1] inb_S1x1x4_S1x1x1_0_0_1, w1⟩, ⟨Rect.unit ![0, 0, 0] ![1, 1, 1] inb_S1x1x4_S1x1x1_0_0_0, w0⟩] (ix3 (0 : Fin 1) (0 : Fin 1) (⟨0, by omega⟩ : Fin 4)) = w0 (ix3 0 0 0)
    ∧ View.canon (Val := Val) [⟨Rect.unit ![0, 0, 3] ![1, 1, 1] inb_S1x1x4_S1x1x1_0_0_3, w3⟩, ⟨Rect.unit ![0, 0, 2] ![1, 1, 1] inb_S1x1x4_S1x1x1_0_0_2, w2⟩, ⟨Rect.unit ![0, 0, 1] ![1, 1, 1] inb_S1x1x4_S1x1x1_0_0_1, w1⟩, ⟨Rect.unit ![0, 0, 0] ![1, 1, 1] inb_S1x1x4_S1x1x1_0_0_0, w0⟩] (ix3 (0 : Fin 1) (0 : Fin 1) (⟨1, by omega⟩ : Fin 4)) = w1 (ix3 0 0 0)
    ∧ View.canon (Val := Val) [⟨Rect.unit ![0, 0, 3] ![1, 1, 1] inb_S1x1x4_S1x1x1_0_0_3, w3⟩, ⟨Rect.unit ![0, 0, 2] ![1, 1, 1] inb_S1x1x4_S1x1x1_0_0_2, w2⟩, ⟨Rect.unit ![0, 0, 1] ![1, 1, 1] inb_S1x1x4_S1x1x1_0_0_1, w1⟩, ⟨Rect.unit ![0, 0, 0] ![1, 1, 1] inb_S1x1x4_S1x1x1_0_0_0, w0⟩] (ix3 (0 : Fin 1) (0 : Fin 1) (⟨2, by omega⟩ : Fin 4)) = w2 (ix3 0 0 0)
    ∧ View.canon (Val := Val) [⟨Rect.unit ![0, 0, 3] ![1, 1, 1] inb_S1x1x4_S1x1x1_0_0_3, w3⟩, ⟨Rect.unit ![0, 0, 2] ![1, 1, 1] inb_S1x1x4_S1x1x1_0_0_2, w2⟩, ⟨Rect.unit ![0, 0, 1] ![1, 1, 1] inb_S1x1x4_S1x1x1_0_0_1, w1⟩, ⟨Rect.unit ![0, 0, 0] ![1, 1, 1] inb_S1x1x4_S1x1x1_0_0_0, w0⟩] (ix3 (0 : Fin 1) (0 : Fin 1) (⟨3, by omega⟩ : Fin 4)) = w3 (ix3 0 0 0) :=
  ⟨(canon_miss 3 0 (by omega) (by omega) inb_S1x1x4_S1x1x1_0_0_3 w3 [⟨Rect.unit ![0, 0, 2] ![1, 1, 1] inb_S1x1x4_S1x1x1_0_0_2, w2⟩, ⟨Rect.unit ![0, 0, 1] ![1, 1, 1] inb_S1x1x4_S1x1x1_0_0_1, w1⟩, ⟨Rect.unit ![0, 0, 0] ![1, 1, 1] inb_S1x1x4_S1x1x1_0_0_0, w0⟩]).trans
      ((canon_miss 2 0 (by omega) (by omega) inb_S1x1x4_S1x1x1_0_0_2 w2 [⟨Rect.unit ![0, 0, 1] ![1, 1, 1] inb_S1x1x4_S1x1x1_0_0_1, w1⟩, ⟨Rect.unit ![0, 0, 0] ![1, 1, 1] inb_S1x1x4_S1x1x1_0_0_0, w0⟩]).trans
        ((canon_miss 1 0 (by omega) (by omega) inb_S1x1x4_S1x1x1_0_0_1 w1 [⟨Rect.unit ![0, 0, 0] ![1, 1, 1] inb_S1x1x4_S1x1x1_0_0_0, w0⟩]).trans
          (canon_hit 0 (by omega) inb_S1x1x4_S1x1x1_0_0_0 w0 []))),
    (canon_miss 3 1 (by omega) (by omega) inb_S1x1x4_S1x1x1_0_0_3 w3 [⟨Rect.unit ![0, 0, 2] ![1, 1, 1] inb_S1x1x4_S1x1x1_0_0_2, w2⟩, ⟨Rect.unit ![0, 0, 1] ![1, 1, 1] inb_S1x1x4_S1x1x1_0_0_1, w1⟩, ⟨Rect.unit ![0, 0, 0] ![1, 1, 1] inb_S1x1x4_S1x1x1_0_0_0, w0⟩]).trans
      ((canon_miss 2 1 (by omega) (by omega) inb_S1x1x4_S1x1x1_0_0_2 w2 [⟨Rect.unit ![0, 0, 1] ![1, 1, 1] inb_S1x1x4_S1x1x1_0_0_1, w1⟩, ⟨Rect.unit ![0, 0, 0] ![1, 1, 1] inb_S1x1x4_S1x1x1_0_0_0, w0⟩]).trans
        (canon_hit 1 (by omega) inb_S1x1x4_S1x1x1_0_0_1 w1 [⟨Rect.unit ![0, 0, 0] ![1, 1, 1] inb_S1x1x4_S1x1x1_0_0_0, w0⟩])),
    (canon_miss 3 2 (by omega) (by omega) inb_S1x1x4_S1x1x1_0_0_3 w3 [⟨Rect.unit ![0, 0, 2] ![1, 1, 1] inb_S1x1x4_S1x1x1_0_0_2, w2⟩, ⟨Rect.unit ![0, 0, 1] ![1, 1, 1] inb_S1x1x4_S1x1x1_0_0_1, w1⟩, ⟨Rect.unit ![0, 0, 0] ![1, 1, 1] inb_S1x1x4_S1x1x1_0_0_0, w0⟩]).trans
      (canon_hit 2 (by omega) inb_S1x1x4_S1x1x1_0_0_2 w2 [⟨Rect.unit ![0, 0, 1] ![1, 1, 1] inb_S1x1x4_S1x1x1_0_0_1, w1⟩, ⟨Rect.unit ![0, 0, 0] ![1, 1, 1] inb_S1x1x4_S1x1x1_0_0_0, w0⟩]),
    canon_hit 3 (by omega) inb_S1x1x4_S1x1x1_0_0_3 w3 [⟨Rect.unit ![0, 0, 2] ![1, 1, 1] inb_S1x1x4_S1x1x1_0_0_2, w2⟩, ⟨Rect.unit ![0, 0, 1] ![1, 1, 1] inb_S1x1x4_S1x1x1_0_0_1, w1⟩, ⟨Rect.unit ![0, 0, 0] ![1, 1, 1] inb_S1x1x4_S1x1x1_0_0_0, w0⟩]⟩

/-- A `[1, 1]` array recast to `[1, 1, 1]` keeps its one entry. -/
theorem entry111 {α : Type} (v : S1x1.Idx → α) (h : S1x1.ShapeCasts S1x1x1) :
    shapeCast S1x1x1 v h (ix3 (0 : Fin 1) (0 : Fin 1) (0 : Fin 1)) = v (ix2 (0 : Fin 1) (0 : Fin 1)) :=
  Cert.LibKeepdims.shapeCast_ab_a1b_apply v h 0 0 0

theorem pay5_entry (v : Vec Ideal S1x1 .f32) : k0_pay5 v (ix3 (0 : Fin 1) (0 : Fin 1) (0 : Fin 1)) = v (ix2 0 0) :=
  entry111 v shapeCasts_S1x1_S1x1x1
theorem pay6_entry (v : Vec Ideal S1x1 .f32) : k0_pay6 v (ix3 (0 : Fin 1) (0 : Fin 1) (0 : Fin 1)) = v (ix2 0 0) :=
  entry111 v shapeCasts_S1x1_S1x1x1
theorem pay7_entry (v : Vec Ideal S1x1 .f32) : k0_pay7 v (ix3 (0 : Fin 1) (0 : Fin 1) (0 : Fin 1)) = v (ix2 0 0) :=
  entry111 v shapeCasts_S1x1_S1x1x1
theorem pay8_entry (v : Vec Ideal S1x1 .f32) : k0_pay8 v (ix3 (0 : Fin 1) (0 : Fin 1) (0 : Fin 1)) = v (ix2 0 0) :=
  entry111 v shapeCasts_S1x1_S1x1x1

/-- At the last cell tile of a batch tile the output block is four one-entry stores of the updated accumulators. -/
theorem out_last_block (c : Dev nD) (t : Fin cfg0.N) (h0 : ¬t.val % 169 = 0) (h1 : t.val % 169 = 168) :
    (outsAt0 m c t.val t.isLt).1
      = View.canon
          [⟨Rect.unit ![0, 0, 3] ![1, 1, 1] inb_S1x1x4_S1x1x1_0_0_3, k0_pay8 (updBg (B0 m c t) (B1 m c t) (prev m c t).2.2.2.2)⟩,
           ⟨Rect.unit ![0, 0, 2] ![1, 1, 1] inb_S1x1x4_S1x1x1_0_0_2, k0_pay7 (updBce (B0 m c t) (B1 m c t) (prev m c t).2.2.2.1)⟩,
           ⟨Rect.unit ![0, 0, 1] ![1, 1, 1] inb_S1x1x4_S1x1x1_0_0_1, k0_pay6 (updBox (B0 m c t) (B1 m c t) (prev m c t).2.2.1)⟩,
           ⟨Rect.unit ![0, 0, 0] ![1, 1, 1] inb_S1x1x4_S1x1x1_0_0_0, k0_pay5 (updFace (B1 m c t) (prev m c t).2.1)⟩] :=
  (congrArg Prod.fst (outsAt0_C m c t h0 h1)).trans (outC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2)

/-- … and the accumulators are those updated values. -/
theorem acc_last (c : Dev nD) (t : Fin cfg0.N) (h0 : ¬t.val % 169 = 0) (h1 : t.val % 169 = 168) :
    (outsAt0 m c t.val t.isLt).2.1 = updFace (B1 m c t) (prev m c t).2.1
    ∧ (outsAt0 m c t.val t.isLt).2.2.1 = updBox (B0 m c t) (B1 m c t) (prev m c t).2.2.1
    ∧ (outsAt0 m c t.val t.isLt).2.2.2.1 = updBce (B0 m c t) (B1 m c t) (prev m c t).2.2.2.1
    ∧ (outsAt0 m c t.val t.isLt).2.2.2.2 = updBg (B0 m c t) (B1 m c t) (prev m c t).2.2.2.2 :=
  ⟨(congrArg (fun p => p.2.1) (outsAt0_C m c t h0 h1)).trans (soutC_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2),
   (congrArg (fun p => p.2.2.1) (outsAt0_C m c t h0 h1)).trans (soutC_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2),
   (congrArg (fun p => p.2.2.2.1) (outsAt0_C m c t h0 h1)).trans (soutC_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2),
   (congrArg (fun p => p.2.2.2.2) (outsAt0_C m c t h0 h1)).trans (soutC_3 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (B0 m c t) (B1 m c t) (prev m c t).2.1 (prev m c t).2.2.1 (prev m c t).2.2.2.1 (prev m c t).2.2.2.2)⟩

/-- At the last cell tile of a batch tile the output block's four entries are the four accumulators' entries. -/
theorem out_last (c : Dev nD) (t : Fin cfg0.N) (h1 : t.val % 169 = 168) :
    (outsAt0 m c t.val t.isLt).1 (ix3 (0 : Fin 1) (0 : Fin 1) (⟨0, by omega⟩ : Fin 4)) = (outsAt0 m c t.val t.isLt).2.1 (ix2 0 0) ∧
    (outsAt0 m c t.val t.isLt).1 (ix3 (0 : Fin 1) (0 : Fin 1) (⟨1, by omega⟩ : Fin 4)) = (outsAt0 m c t.val t.isLt).2.2.1 (ix2 0 0) ∧
    (outsAt0 m c t.val t.isLt).1 (ix3 (0 : Fin 1) (0 : Fin 1) (⟨2, by omega⟩ : Fin 4)) = (outsAt0 m c t.val t.isLt).2.2.2.1 (ix2 0 0) ∧
    (outsAt0 m c t.val t.isLt).1 (ix3 (0 : Fin 1) (0 : Fin 1) (⟨3, by omega⟩ : Fin 4)) = (outsAt0 m c t.val t.isLt).2.2.2.2 (ix2 0 0) := by
  have h0 : ¬t.val % 169 = 0 := by omega
  obtain ⟨a0, a1, a2, a3⟩ := acc_last m c t h0 h1
  obtain ⟨e0, e1, e2, e3⟩ := canon4 (Val := Elt Ideal) (k0_pay5 (updFace (B1 m c t) (prev m c t).2.1))
    (k0_pay6 (updBox (B0 m c t) (B1 m c t) (prev m c t).2.2.1)) (k0_pay7 (updBce (B0 m c t) (B1 m c t) (prev m c t).2.2.2.1))
    (k0_pay8 (updBg (B0 m c t) (B1 m c t) (prev m c t).2.2.2.2))
  rw [out_last_block m c t h0 h1, a0, a1, a2, a3]
  exact ⟨e0.trans (pay5_entry _), e1.trans (pay6_entry _), e2.trans (pay7_entry _), e3.trans (pay8_entry _)⟩

/-! ## The running sums -/

/-- The four per-tile partial sums at grid point `p` (zero past the grid). -/
def TnFace (c : Dev nD) (p : ℕ) : EReal := if h : p < cfg0.N then tFace (B1 m c ⟨p, h⟩) else 0
def TnBox (c : Dev nD) (p : ℕ) : EReal := if h : p < cfg0.N then tBox (B0 m c ⟨p, h⟩) (B1 m c ⟨p, h⟩) else 0
def TnBce (c : Dev nD) (p : ℕ) : EReal := if h : p < cfg0.N then tBce (B0 m c ⟨p, h⟩) (B1 m c ⟨p, h⟩) else 0
def TnBg (c : Dev nD) (p : ℕ) : EReal := if h : p < cfg0.N then tBg (B0 m c ⟨p, h⟩) (B1 m c ⟨p, h⟩) else 0

/-- After point `n` each accumulator holds the sum of its partial sums over the cell tiles `0 … n % 169` of batch
    tile `n / 169`. -/
theorem acc_eq (c : Dev nD) : ∀ (n : ℕ) (h : n < cfg0.N),
    (outsAt0 m c n h).2.1 (ix2 0 0) = ∑ j ∈ Finset.range (n % 169 + 1), TnFace m c (n / 169 * 169 + j) ∧
    (outsAt0 m c n h).2.2.1 (ix2 0 0) = ∑ j ∈ Finset.range (n % 169 + 1), TnBox m c (n / 169 * 169 + j) ∧
    (outsAt0 m c n h).2.2.2.1 (ix2 0 0) = ∑ j ∈ Finset.range (n % 169 + 1), TnBce m c (n / 169 * 169 + j) ∧
    (outsAt0 m c n h).2.2.2.2 (ix2 0 0) = ∑ j ∈ Finset.range (n % 169 + 1), TnBg m c (n / 169 * 169 + j)
  | 0, h => by
    obtain ⟨e0, e1, e2, e3⟩ := step_first m c ⟨0, h⟩ rfl
    refine ⟨e0.trans ?_, e1.trans ?_, e2.trans ?_, e3.trans ?_⟩ <;>
    · rw [show (0 : ℕ) % 169 + 1 = 1 from rfl, Finset.sum_range_one]
      show _ = dite _ _ _
      rw [dif_pos (show 0 / 169 * 169 + 0 < cfg0.N from h)]
  | n + 1, h => by
    have hN : cfg0.N = 2704 := N_0
    by_cases h0 : (n + 1) % 169 = 0
    · obtain ⟨e0, e1, e2, e3⟩ := step_first m c ⟨n + 1, h⟩ h0
      have hp : (n + 1) / 169 * 169 + 0 = n + 1 := by omega
      refine ⟨e0.trans ?_, e1.trans ?_, e2.trans ?_, e3.trans ?_⟩ <;>
      · rw [h0, Finset.sum_range_one]
        show _ = dite _ _ _
        rw [dif_pos (show (n + 1) / 169 * 169 + 0 < cfg0.N by omega)]
        simp only [hp]
    · obtain ⟨e0, e1, e2, e3⟩ := step_next m c ⟨n + 1, h⟩ h0
      obtain ⟨i0, i1, i2, i3⟩ := acc_eq c n (Nat.lt_of_succ_lt h)
      have hm : (n + 1) % 169 = n % 169 + 1 := by omega
      have hd : (n + 1) / 169 = n / 169 := by omega
      have hp : n / 169 * 169 + (n % 169 + 1) = n + 1 := by omega
      refine ⟨e0.trans ?_, e1.trans ?_, e2.trans ?_, e3.trans ?_⟩ <;>
      · rw [hm, hd, Finset.sum_range_succ _ (n % 169 + 1)]
        refine congrArg₂ (· + ·) (by first | exact i0 | exact i1 | exact i2 | exact i3) ?_
        show _ = dite _ _ _
        rw [dif_pos (show n / 169 * 169 + (n % 169 + 1) < cfg0.N by omega)]
        simp only [hp]

end Cert.KernelIdeal.Accum

end
-- ==== Proof.Output.lean ====
/-
  The kernel's output array after the run, at the exact values.
  The output window's block `(q, 0, 0)` of the `[16, 1, 4]` result stays in its buffer through batch tile `q`'s 169 cell
  tiles and is written back once, after the last; it then holds the four accumulators. So entry `(q, 0, k)` of the
  result array is the `k`-th per-tile partial sum added up over batch tile `q`'s 169 cell tiles (`final_out`).
  Read through the input windows, tile `(q, j)` covers rows `128 q … 128 q + 127` and cells `16 j … 16 j + 15`
  of the arguments (`B0_apply`, `B1_apply`).
-/
import proofs.«177025_j38285338476689_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen Cert.KernelIdeal.Pieces Cert.KernelIdeal.Accum Cert.Bridge.Tile Cert.Bridge.Spec
open scoped BigOperators

variable (m : (ℓ : Loc nD τ sig) → Buf (Elt Ideal) ℓ)

/-- The three index maps over the grid: point `t` is cell tile `t % 169` of batch tile `t / 169`; the inputs' blocks
    move with both, the output's block with the batch tile only. -/
theorem idx_facts : ∀ t : Fin cfg0.N,
    win0_0.index t (0 : Fin 3) = t.val / 169 ∧ win0_0.index t (1 : Fin 3) = t.val % 169 ∧ win0_0.index t (2 : Fin 3) = 0
    ∧ win0_1.index t (0 : Fin 3) = t.val / 169 ∧ win0_1.index t (1 : Fin 3) = t.val % 169 ∧ win0_1.index t (2 : Fin 3) = 0
    ∧ win0_2.index t (0 : Fin 3) = t.val / 169 ∧ win0_2.index t (1 : Fin 3) = 0 ∧ win0_2.index t (2 : Fin 3) = 0 :=
  (by decide +kernel : ∀ t : Fin grid0.N, _)

/-! ## The input blocks, read off the arguments -/

/-- Entry `(r, l, d)` of the first argument's block at point `t`. -/
theorem B0_apply (c : Dev nD) (t : Fin cfg0.N) (r : Fin 128) (l : Fin 16) (d : Fin 5) (b : Fin 2048) (e : Fin 2704)
    (hb : b.val = t.val / 169 * 128 + r.val) (he : e.val = t.val % 169 * 16 + l.val) :
    B0 m c t (ix3 r l d) = m ((c : Thread nD τ).loc main_arg0) (ix3 b e d) := by
  obtain ⟨e0, e1, e2, -⟩ := idx_facts t
  show V m c main_arg0 (((cfg0.win 0).blk t).view.emb (ix3 r l d)) = V m c main_arg0 (ix3 b e d)
  refine congrArg (V m c main_arg0) (funext fun a => Fin.ext ?_)
  match a with
  | ⟨0, _⟩ => show win0_0.index t (0 : Fin 3) * 128 + 1 * r.val = b.val; rw [e0, hb]; omega
  | ⟨1, _⟩ => show win0_0.index t (1 : Fin 3) * 16 + 1 * l.val = e.val; rw [e1, he]; omega
  | ⟨2, _⟩ => show win0_0.index t (2 : Fin 3) * 5 + 1 * d.val = d.val; rw [e2]; omega

/-- Entry `(r, l, d)` of the second argument's block at point `t`. -/
theorem B1_apply (c : Dev nD) (t : Fin cfg0.N) (r : Fin 128) (l : Fin 16) (d : Fin 5) (b : Fin 2048) (e : Fin 2704)
    (hb : b.val = t.val / 169 * 128 + r.val) (he : e.val = t.val % 169 * 16 + l.val) :
    B1 m c t (ix3 r l d) = m ((c : Thread nD τ).loc main_arg1) (ix3 b e d) := by
  obtain ⟨-, -, -, e0, e1, e2, -⟩ := idx_facts t
  show V m c main_arg1 (((cfg0.win 1).blk t).view.emb (ix3 r l d)) = V m c main_arg1 (ix3 b e d)
  refine congrArg (V m c main_arg1) (funext fun a => Fin.ext ?_)
  match a with
  | ⟨0, _⟩ => show win0_1.index t (0 : Fin 3) * 128 + 1 * r.val = b.val; rw [e0, hb]; omega
  | ⟨1, _⟩ => show win0_1.index t (1 : Fin 3) * 16 + 1 * l.val = e.val; rw [e1, he]; omega
  | ⟨2, _⟩ => show win0_1.index t (2 : Fin 3) * 5 + 1 * d.val = d.val; rw [e2]; omega

/-! ## The output array -/

/-- The `k`-th per-tile partial sum at grid point `p` (`k` = 0 face count, 1 box error, 2 cross-entropy, else background). -/
def Tn4 (k : ℕ) : Dev nD → ℕ → EReal :=
  match k with
  | 0 => TnFace m
  | 1 => TnBox m
  | 2 => TnBce m
  | _ => TnBg m

/-- Batch tile `q`'s `k`-th total: the partial sums of its 169 cell tiles. -/
def coreTot (c : Dev nD) (q k : ℕ) : EReal := ∑ j ∈ Finset.range 169, Tn4 m k c (q * 169 + j)

/-- The result array: entry `(q, 0, k)` is batch tile `q`'s `k`-th total. -/
def outArr (c : Dev nD) : Buf (Elt Ideal) ((c : Thread nD τ).loc main_v0) := fun i => coreTot m c (i 0).val (i 2).val

/-- What the one write-back of batch tile `t / 169` writes is that block of `outArr`. -/
theorem flushed_eq (c : Dev nD) (t : Fin cfg0.N) (hf : (cfg0.win 2).flush t = true) :
    (dats m 0 c).flushed 2 t = ((cfg0.win 2).blk t).view.read (Elt Ideal) (outArr m c) := by
  have h168 : t.val % 169 = 168 := (flush0_2 t).mp hf
  have hN : cfg0.N = 2704 := N_0
  have ht := t.isLt
  obtain ⟨-, -, -, -, -, -, e0, e1, e2⟩ := idx_facts t
  obtain ⟨o0, o1, o2, o3⟩ := out_last m c t h168
  obtain ⟨a0, a1, a2, a3⟩ := acc_eq m c t.val t.isLt
  show (cfg0.win 2).cut (grid0.coords t) ((dats m 0 c).after 2 t) = _
  rw [after0_2]
  refine funext fun (y : S1x1x4.Idx) => ?_
  obtain ⟨u, v, k, rfl⟩ : ∃ (u : Fin 1) (v : Fin 1) (k : Fin 4), y = ix3 u v k := ⟨y 0, y 1, y 2, eq_ix3 y⟩
  obtain rfl : u = 0 := Subsingleton.elim _ _
  obtain rfl : v = 0 := Subsingleton.elim _ _
  have hq : ((((cfg0.win 2).blk t).view.emb (ix3 (0 : Fin 1) (0 : Fin 1) k)) 0).val = t.val / 169 := by
    show win0_2.index t (0 : Fin 3) * 1 + 1 * 0 = t.val / 169; rw [e0]; omega
  have hk : ((((cfg0.win 2).blk t).view.emb (ix3 (0 : Fin 1) (0 : Fin 1) k)) 2).val = k.val := by
    show win0_2.index t (2 : Fin 3) * 4 + 1 * k.val = k.val; rw [e2]; omega
  show (outsAt0 m c t.val t.isLt).1 (ix3 (0 : Fin 1) (0 : Fin 1) k) = coreTot m c _ _
  rw [hq, hk]
  unfold coreTot
  rw [h168] at a0 a1 a2 a3
  match k with
  | ⟨0, _⟩ => exact o0.trans a0
  | ⟨1, _⟩ => exact o1.trans a1
  | ⟨2, _⟩ => exact o2.trans a2
  | ⟨3, _⟩ => exact o3.trans a3

/-- An index of the result array is in point `t`'s block iff each coordinate is in the block's range. -/
theorem mem_blk (c : Dev nD) (t : Fin cfg0.N) (i : S16x1x4.Idx) :
    i ∈ ((cfg0.win 2).blk t).view.set ↔ ∀ a : Fin 3, win0_2.index t a * S1x1x4.size a ≤ (i a).val ∧ (i a).val < win0_2.index t a * S1x1x4.size a + S1x1x4.size a := by
  show i ∈ ((View.whole main_v0).slice (win0_2.rect t)).set ↔ _
  rw [View.set_slice_whole, Rect.mem_set_unit]
  exact Iff.rfl

/-- Every entry of the result array is written back: entry `(q, 0, k)` at the last cell tile of batch tile `q`. -/
theorem cover (c : Dev nD) (i : S16x1x4.Idx) :
    ∃ t : Fin cfg0.N, (cfg0.win 2).flush t = true ∧ i ∈ ((cfg0.win 2).blk t).view.set := by
  have hN : cfg0.N = 2704 := N_0
  have h0 : (i 0).val < 16 := (i 0).isLt
  have h1 : (i 1).val < 1 := (i 1).isLt
  have h2 : (i 2).val < 4 := (i 2).isLt
  obtain ⟨t, ht⟩ : ∃ t : Fin cfg0.N, t.val = (i 0).val * 169 + 168 := ⟨⟨(i 0).val * 169 + 168, by omega⟩, rfl⟩
  refine ⟨t, (flush0_2 t).mpr (by omega), ?_⟩
  obtain ⟨-, -, -, -, -, -, e0, e1, e2⟩ := idx_facts t
  rw [mem_blk c]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1 ≤ (i 1).val ∧ (i 1).val < win0_2.index t (1 : Fin 3) * 1 + 1; rw [e1]; omega
  | ⟨2, _⟩ => show win0_2.index t (2 : Fin 3) * 4 ≤ (i 2).val ∧ (i 2).val < win0_2.index t (2 : Fin 3) * 4 + 4; rw [e2]; omega

/-- So the result array ends holding `outArr`. -/
theorem final_out (c : Dev nD) : (dats m 0 c).arrAt 2 cfg0.N = outArr m c :=
  (dats m 0 c).arrAt_eq_of_cover 2 (outArr m c) (flushed_eq m c) (cover c)

end Cert.KernelIdeal.Output

end
-- ==== Proof.Tail.lean ====
/-
  The host operations after the kernel, at the exact values.
  They sum the `[16, 1, 4]` result array over its first two axes (four totals, each from zero over the 16 batch tiles),
  take the four totals apart and combine them into the loss: with the totals `face`, `box`, `bce`, `bg` the value is
  `Spec.loss face box bce bg (cells − face)`.
-/
import proofs.«177025_j38285338476689_2_alg».proof.Proof.Output

noncomputable section

open Idealize.ShloMosaic Idealize.ShloMosaic.TcCoe Idealize.SL.Sem Idealize.ShloMosaic.ValueIdx

namespace Cert.KernelIdeal.Tail

open Cert.KernelIdeal Cert.KernelIdeal.Gen Cert.Bridge.Spec
open scoped BigOperators

/-- The four totals of the result array, as the host's reduce leaves them. -/
def sums (out : S16x1x4.Idx → EReal) : FVec Ideal S4 .f32 :=
  Host.reduceAdd (F := Ideal) out (constant S_ .f32 0x00000000#32) reducesTo_S16x1x4_S4_d0_1 h_S_

def entry0 (out : S16x1x4.Idx → EReal) : S_.Idx → EReal :=
  fun i => shapeCast S_ (extractStridedSlice S1 ![0] (sums out) slices_S4_S1_0) shapeCasts_S1_S_ i
def entry1 (out : S16x1x4.Idx → EReal) : S_.Idx → EReal :=
  fun i => shapeCast S_ (extractStridedSlice S1 ![1] (sums out) slices_S4_S1_1) shapeCasts_S1_S_ i
def entry2 (out : S16x1x4.Idx → EReal) : S_.Idx → EReal :=
  fun i => shapeCast S_ (extractStridedSlice S1 ![2] (sums out) slices_S4_S1_2) shapeCasts_S1_S_ i
def entry3 (out : S16x1x4.Idx → EReal) : S_.Idx → EReal :=
  fun i => shapeCast S_ (extractStridedSlice S1 ![3] (sums out) slices_S4_S1_3) shapeCasts_S1_S_ i

/-- The host operations after the kernel, as one function of the result array. -/
def tailVal (out : S16x1x4.Idx → EReal) : S_.Idx → EReal :=
  addf (φ := .f32)
    (addf (φ := .f32)
      (mulf (φ := .f32) (addf (φ := .f32) (constant (F := Ideal) S_ .f32 0x3F800000#32) (Host.divf (φ := .f32) (constant (F := Ideal) S_ .f32 0x3F800000#32) (entry0 out)))
        (Host.divf (φ := .f32) (entry1 out) (mulf (φ := .f32) (constant (F := Ideal) S_ .f32 0x40800000#32) (entry0 out))))
      (mulf (φ := .f32) (addf (φ := .f32) (constant (F := Ideal) S_ .f32 0x3F800000#32) (Host.divf (φ := .f32) (constant (F := Ideal) S_ .f32 0x3F800000#32) (entry0 out)))
        (Host.divf (φ := .f32) (entry2 out) (entry0 out))))
    (mulf (φ := .f32) (constant (F := Ideal) S_ .f32 0x3F800000#32)
      (Host.divf (φ := .f32) (entry3 out) (subf (φ := .f32) (constant (F := Ideal) S_ .f32 0x4AA90000#32) (entry0 out))))

/-- The tail is the loss of its four totals. -/
theorem tailVal_apply (out : S16x1x4.Idx → EReal) (i : S_.Idx) :
    tailVal out i = loss (entry0 out i) (entry1 out i) (entry2 out i) (entry3 out i)
      (Ideal.ofBits .f32 0x4AA90000#32 - entry0 out i) := rfl

/-! ## One total -/

/-- The entries of the result array that the reduce adds into total `k`: `(q, 0, k)` for the 16 batch tiles `q`. -/
def entryEmb (k : Fin 4) : Fin 16 ↪ S16x1x4.Idx :=
  ⟨fun q => ix3 q (0 : Fin 1) k, fun q q' h => by have := congrFun h 0; exact this⟩

theorem filter_entry (k : Fin 4) :
    Finset.univ.filter (fun i : S16x1x4.Idx => reducesTo_S16x1x4_S4_d0_1.drop i = ix1 k) = Finset.univ.map (entryEmb k) := by
  ext i
  simp only [Finset.mem_filter, Finset.mem_univ, true_and, Finset.mem_map, entryEmb, Function.Embedding.coeFn_mk]
  constructor
  · intro h
    have h2 : i 2 = k := by
      have h' := congrFun h 0
      exact h'
    refine ⟨i 0, ?_⟩
    funext a
    match a with
    | ⟨0, _⟩ => rfl
    | ⟨1, _⟩ => exact Fin.ext (by have h1 : (i 1).val < 1 := (i 1).isLt; show 0 = (i 1).val; omega)
    | ⟨2, _⟩ => exact h2.symm
  · rintro ⟨q, rfl⟩
    funext b
    match b with
    | ⟨0, _⟩ => rfl

/-- Total `k` is the sum of the result array's entries `(q, 0, k)`, from the zero the reduce starts from. -/
theorem sums_apply (out : S16x1x4.Idx → EReal) (k : Fin 4) : sums out (ix1 k) = ∑ q : Fin 16, out (ix3 q (0 : Fin 1) k) := by
  show Ideal.hostReduceAdd reducesTo_S16x1x4_S4_d0_1 out (Ideal.ofBits .f32 0x00000000#32) (ix1 k) = _
  unfold Ideal.hostReduceAdd
  rw [filter_entry, Finset.sum_map, Ideal.ofBits_zero_f32, zero_add]
  rfl

/-- A one-entry slice at offset `k` of the four totals, recast to a scalar, is total `k`. -/
theorem entry_apply (v : S4.Idx → EReal) (k : ℕ) (hk : k < 4) (h : S4.Slices ![k] S1) (i : S_.Idx) :
    shapeCast S_ (extractStridedSlice S1 ![k] v h) shapeCasts_S1_S_ i = v (ix1 ⟨k, hk⟩) := by
  rw [shapeCast_apply (extractStridedSlice S1 ![k] v h) shapeCasts_S1_S_ i (ix1 (0 : Fin 1)) (by
    rw [Shape.rowMajor_val_one]; rfl)]
  exact extractStridedSlice_apply ![k] v h (ix1 (0 : Fin 1)) (ix1 ⟨k, hk⟩) (fun a => match a with
    | ⟨0, _⟩ => by show k = k + 0; omega)

theorem entry0_apply (out : S16x1x4.Idx → EReal) (i : S_.Idx) : entry0 out i = ∑ q : Fin 16, out (ix3 q (0 : Fin 1) (0 : Fin 4)) :=
  (entry_apply (sums out) 0 (by omega) slices_S4_S1_0 i).trans (sums_apply out 0)
theorem entry1_apply (out : S16x1x4.Idx → EReal) (i : S_.Idx) : entry1 out i = ∑ q : Fin 16, out (ix3 q (0 : Fin 1) (1 : Fin 4)) :=
  (entry_apply (sums out) 1 (by omega) slices_S4_S1_1 i).trans (sums_apply out 1)
theorem entry2_apply (out : S16x1x4.Idx → EReal) (i : S_.Idx) : entry2 out i = ∑ q : Fin 16, out (ix3 q (0 : Fin 1) (2 : Fin 4)) :=
  (entry_apply (sums out) 2 (by omega) slices_S4_S1_2 i).trans (sums_apply out 2)
theorem entry3_apply (out : S16x1x4.Idx → EReal) (i : S_.Idx) : entry3 out i = ∑ q : Fin 16, out (ix3 q (0 : Fin 1) (3 : Fin 4)) :=
  (entry_apply (sums out) 3 (by omega) slices_S4_S1_3 i).trans (sums_apply out 3)

end Cert.KernelIdeal.Tail

end
-- ==== Proof.LibSumBlocks.lean ====
/-
  Finite sums over index sets, rearranged; every statement holds in any commutative additive monoid.

  * `sum_blocks`: a sum over `m * n` consecutive positions is the sum over `m` blocks of the sums over the `n`
    positions inside each block (position `t * n + r` is position `r` of block `t`).
  * `sum_idx1`: a sum over the index set of a rank-1 shape `[n]` is the sum over its one coordinate.
  * `sum_idxMid`: a sum over the index set of a shape `[1, n, 1]` is the sum over its middle coordinate.
-/
import Idealize.ShloMosaic.Lib.ValueIdx

open scoped BigOperators

namespace Cert.Lib.SumBlocks

open Idealize.ShloMosaic Idealize.ShloMosaic.ValueIdx

/-- A sum over `N = m * n` positions is the sum over `m` blocks of `n` consecutive positions each: `g t r` names
    position `r` of block `t`, which is position `t * n + r` of the whole. Only commutativity and associativity of
    the addition are used. -/
theorem sum_blocks {M : Type*} [AddCommMonoid M] (m n N : ℕ) (hN : N = m * n) (f : Fin N → M)
    (g : Fin m → Fin n → Fin N) (hg : ∀ t r, (g t r).val = t.val * n + r.val) :
    ∑ i : Fin N, f i = ∑ t : Fin m, ∑ r : Fin n, f (g t r) := by
  subst hN
  rw [← Equiv.sum_comp finProdFinEquiv f, Fintype.sum_prod_type]
  refine Finset.sum_congr rfl fun t _ => Finset.sum_congr rfl fun r _ => congrArg f (Fin.ext ?_)
  rw [hg, finProdFinEquiv_apply_val]
  show r.val + n * t.val = t.val * n + r.val
  rw [Nat.mul_comm, Nat.add_comm]

/-- The index set of a rank-1 shape is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The index set of a shape `[1, n, 1]` is the range of its middle coordinate: the two outer coordinates can only
    be `0` … -/
def idxEquivMid {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idxMid {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquivMid (n := n)).symm f]
  rfl

end Cert.Lib.SumBlocks
-- ==== Proof.Totals.lean ====
/-
  The kernel's result is the loss `G` of its two arguments.
  Tile `(q, j)` — batch tile `q`, cell tile `j` — covers rows `128 q + r` and cells `16 j + l` of the arguments, so
  its four partial sums are sums of the per-cell quantities of Spec.lean over those rows and cells; summed over the
  169 cell tiles and then, by the host's reduce, over the 16 batch tiles, each total is the quantity's sum over all
  2048 · 2704 cells: a finite sum regrouped by blocks, which needs only commutativity and associativity of the
  addition.
-/
import proofs.«177025_j38285338476689_2_alg».proof.Proof.Tail
import proofs.«177025_j38285338476689_2_alg».proof.Proof.LibSumBlocks

noncomputable section

open Idealize.ShloMosaic Idealize.ShloMosaic.TcCoe Idealize.SL.Sem Idealize.ShloMosaic.ValueIdx

namespace Cert.KernelIdeal.Totals

open Cert.KernelIdeal Cert.KernelIdeal.Gen Cert.KernelIdeal.Accum Cert.KernelIdeal.Output Cert.KernelIdeal.Tail
open Cert.Bridge.Tile Cert.Bridge.Spec Cert.Lib.SumBlocks
open scoped BigOperators

variable (m : (ℓ : Loc nD τ sig) → Buf (Elt Ideal) ℓ)

/-- The two arguments on core `c`. -/
abbrev X (c : Dev nD) : SX.Idx → EReal := m ((c : Thread nD τ).loc main_arg0)
abbrev Y (c : Dev nD) : SX.Idx → EReal := m ((c : Thread nD τ).loc main_arg1)

/-- Row `r` of batch tile `q`, cell `l` of cell tile `j`, and the grid point of tile `(q, j)`. -/
def rowOf (q : Fin 16) (r : Fin 128) : Fin 2048 := ⟨q.val * 128 + r.val, by omega⟩
def cellOf (j : Fin 169) (l : Fin 16) : Fin 2704 := ⟨j.val * 16 + l.val, by omega⟩
def pt (q : Fin 16) (j : Fin 169) : Fin cfg0.N := ⟨q.val * 169 + j.val, by rw [show cfg0.N = 2704 from N_0]; omega⟩

theorem pt_row (q : Fin 16) (j : Fin 169) (r : Fin 128) : (rowOf q r).val = (pt q j).val / 169 * 128 + r.val := by
  show q.val * 128 + r.val = (q.val * 169 + j.val) / 169 * 128 + r.val
  have := j.isLt
  omega
theorem pt_cell (q : Fin 16) (j : Fin 169) (l : Fin 16) : (cellOf j l).val = (pt q j).val % 169 * 16 + l.val := by
  show j.val * 16 + l.val = (q.val * 169 + j.val) % 169 * 16 + l.val
  have := j.isLt
  omega

/-- A sum over all cells, regrouped by tiles. -/
theorem tot_tiles (f : Fin 2048 → Fin 2704 → EReal) :
    tot f = ∑ q : Fin 16, ∑ j : Fin 169, ∑ r : Fin 128, ∑ l : Fin 16, f (rowOf q r) (cellOf j l) := by
  unfold tot
  rw [sum_blocks 16 128 2048 (by norm_num) _ rowOf (fun _ _ => rfl)]
  refine Finset.sum_congr rfl fun q _ => ?_
  rw [Finset.sum_congr rfl fun r _ => sum_blocks 169 16 2704 (by norm_num) (fun e => f (rowOf q r) e) cellOf (fun _ _ => rfl)]
  exact Finset.sum_comm

/-! ## One tile's partial sums, over the arguments -/

theorem tFace_eq (c : Dev nD) (q : Fin 16) (j : Fin 169) :
    tFace (B1 m c (pt q j)) = ∑ r : Fin 128, ∑ l : Fin 16, faceAt (Y m c) (rowOf q r) (cellOf j l) := by
  unfold tFace faceAt
  refine Finset.sum_congr rfl fun r _ => Finset.sum_congr rfl fun l _ => ?_
  rw [B1_apply m c (pt q j) r l 0 (rowOf q r) (cellOf j l) (pt_row q j r) (pt_cell q j l)]

theorem tBox_eq (c : Dev nD) (q : Fin 16) (j : Fin 169) :
    tBox (B0 m c (pt q j)) (B1 m c (pt q j)) = ∑ r : Fin 128, ∑ l : Fin 16, boxAt (X m c) (Y m c) (rowOf q r) (cellOf j l) := by
  unfold tBox boxAt faceAt boxCell
  refine Finset.sum_congr rfl fun r _ => Finset.sum_congr rfl fun l _ => ?_
  rw [B1_apply m c (pt q j) r l 0 (rowOf q r) (cellOf j l) (pt_row q j r) (pt_cell q j l),
    B0_apply m c (pt q j) r l 1 (rowOf q r) (cellOf j l) (pt_row q j r) (pt_cell q j l),
    B1_apply m c (pt q j) r l 1 (rowOf q r) (cellOf j l) (pt_row q j r) (pt_cell q j l),
    B0_apply m c (pt q j) r l 2 (rowOf q r) (cellOf j l) (pt_row q j r) (pt_cell q j l),
    B1_apply m c (pt q j) r l 2 (rowOf q r) (cellOf j l) (pt_row q j r) (pt_cell q j l),
    B0_apply m c (pt q j) r l 3 (rowOf q r) (cellOf j l) (pt_row q j r) (pt_cell q j l),
    B1_apply m c (pt q j) r l 3 (rowOf q r) (cellOf j l) (pt_row q j r) (pt_cell q j l),
    B0_apply m c (pt q j) r l 4 (rowOf q r) (cellOf j l) (pt_row q j r) (pt_cell q j l),
    B1_apply m c (pt q j) r l 4 (rowOf q r) (cellOf j l) (pt_row q j r) (pt_cell q j l)]

theorem tBce_eq (c : Dev nD) (q : Fin 16) (j : Fin 169) :
    tBce (B0 m c (pt q j)) (B1 m c (pt q j)) = ∑ r : Fin 128, ∑ l : Fin 16, bceAt (X m c) (Y m c) (rowOf q r) (cellOf j l) := by
  unfold tBce bceAt faceAt
  refine Finset.sum_congr rfl fun r _ => Finset.sum_congr rfl fun l _ => ?_
  rw [B1_apply m c (pt q j) r l 0 (rowOf q r) (cellOf j l) (pt_row q j r) (pt_cell q j l),
    B0_apply m c (pt q j) r l 0 (rowOf q r) (cellOf j l) (pt_row q j r) (pt_cell q j l)]

theorem tBg_eq (c : Dev nD) (q : Fin 16) (j : Fin 169) :
    tBg (B0 m c (pt q j)) (B1 m c (pt q j)) = ∑ r : Fin 128, ∑ l : Fin 16, bgAt (X m c) (Y m c) (rowOf q r) (cellOf j l) := by
  unfold tBg bgAt
  refine Finset.sum_congr rfl fun r _ => Finset.sum_congr rfl fun l _ => ?_
  rw [B1_apply m c (pt q j) r l 0 (rowOf q r) (cellOf j l) (pt_row q j r) (pt_cell q j l),
    B0_apply m c (pt q j) r l 0 (rowOf q r) (cellOf j l) (pt_row q j r) (pt_cell q j l)]

/-! ## A batch tile's totals, and the four totals of the result array -/

theorem core_face (c : Dev nD) (q : Fin 16) : coreTot m c q.val 0 = ∑ j : Fin 169, tFace (B1 m c (pt q j)) := by
  unfold coreTot
  rw [Finset.sum_range]
  refine Finset.sum_congr rfl fun j _ => ?_
  show TnFace m c (q.val * 169 + j.val) = _
  unfold TnFace
  exact dif_pos (show q.val * 169 + j.val < cfg0.N from (pt q j).isLt)

theorem core_box (c : Dev nD) (q : Fin 16) :
    coreTot m c q.val 1 = ∑ j : Fin 169, tBox (B0 m c (pt q j)) (B1 m c (pt q j)) := by
  unfold coreTot
  rw [Finset.sum_range]
  refine Finset.sum_congr rfl fun j _ => ?_
  show TnBox m c (q.val * 169 + j.val) = _
  unfold TnBox
  exact dif_pos (show q.val * 169 + j.val < cfg0.N from (pt q j).isLt)

theorem core_bce (c : Dev nD) (q : Fin 16) :
    coreTot m c q.val 2 = ∑ j : Fin 169, tBce (B0 m c (pt q j)) (B1 m c (pt q j)) := by
  unfold coreTot
  rw [Finset.sum_range]
  refine Finset.sum_congr rfl fun j _ => ?_
  show TnBce m c (q.val * 169 + j.val) = _
  unfold TnBce
  exact dif_pos (show q.val * 169 + j.val < cfg0.N from (pt q j).isLt)

theorem core_bg (c : Dev nD) (q : Fin 16) :
    coreTot m c q.val 3 = ∑ j : Fin 169, tBg (B0 m c (pt q j)) (B1 m c (pt q j)) := by
  unfold coreTot
  rw [Finset.sum_range]
  refine Finset.sum_congr rfl fun j _ => ?_
  show TnBg m c (q.val * 169 + j.val) = _
  unfold TnBg
  exact dif_pos (show q.val * 169 + j.val < cfg0.N from (pt q j).isLt)

/-- The result array, as a function into the extended reals. -/
def outE (c : Dev nD) : S16x1x4.Idx → EReal := outArr m c

/-- The first total of the result array is the number of face cells. -/
theorem total_face (c : Dev nD) : ∑ q : Fin 16, outE m c (ix3 q (0 : Fin 1) (0 : Fin 4)) = tot (faceAt (Y m c)) := by
  rw [tot_tiles]
  refine Finset.sum_congr rfl fun q _ => ?_
  show coreTot m c q.val 0 = _
  rw [core_face]
  exact Finset.sum_congr rfl fun j _ => tFace_eq m c q j

theorem total_box (c : Dev nD) : ∑ q : Fin 16, outE m c (ix3 q (0 : Fin 1) (1 : Fin 4)) = tot (boxAt (X m c) (Y m c)) := by
  rw [tot_tiles]
  refine Finset.sum_congr rfl fun q _ => ?_
  show coreTot m c q.val 1 = _
  rw [core_box]
  exact Finset.sum_congr rfl fun j _ => tBox_eq m c q j

theorem total_bce (c : Dev nD) : ∑ q : Fin 16, outE m c (ix3 q (0 : Fin 1) (2 : Fin 4)) = tot (bceAt (X m c) (Y m c)) := by
  rw [tot_tiles]
  refine Finset.sum_congr rfl fun q _ => ?_
  show coreTot m c q.val 2 = _
  rw [core_bce]
  exact Finset.sum_congr rfl fun j _ => tBce_eq m c q j

theorem total_bg (c : Dev nD) : ∑ q : Fin 16, outE m c (ix3 q (0 : Fin 1) (3 : Fin 4)) = tot (bgAt (X m c) (Y m c)) := by
  rw [tot_tiles]
  refine Finset.sum_congr rfl fun q _ => ?_
  show coreTot m c q.val 3 = _
  rw [core_bg]
  exact Finset.sum_congr rfl fun j _ => tBg_eq m c q j

/-- The host operations after the kernel, on the result array the kernel leaves, give the loss of the arguments. -/
theorem tail_out (c : Dev nD) : tailVal (outE m c) = fun _ => G (X m c) (Y m c) := by
  funext i
  rw [tailVal_apply, entry0_apply, entry1_apply, entry2_apply, entry3_apply, total_face, total_box, total_bce, total_bg]
  rfl

end Cert.KernelIdeal.Totals

end
-- ==== Proof.KernelRun.lean ====
/-
  The idealized kernel's run, read: every fair execution ends with the result buffer at the loss `G` of the two
  arguments and the arguments unchanged. The generated frame run names the result array after the region and the
  buffers the host operations after it write; the result buffer is those operations applied to the result array.
-/
import proofs.«177025_j38285338476689_2_alg».proof.Proof.Totals
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Output Cert.KernelIdeal.Tail Cert.KernelIdeal.Totals
open Cert.Bridge.Spec Idealize.ShloMosaic.StableHlo

variable (m : (ℓ : Loc nD τ sig) → Buf (Elt Ideal) ℓ) (ρ : Dev nD → PrngReg)

set_option maxHeartbeats 8000000 in
/-- The host operations after the region, run from any buffer contents, leave in the result buffer their composed
    function of the kernel's result array. -/
theorem tail_generic (W : Valuation τ sig (Elt Ideal)) :
    StableHlo.after (List.flatten [hostOps1 (F := Ideal)]) W (Proc.devRef .tc main_v21) = tailVal (W (Proc.devRef .tc main_v0)) := by
  simp only [List.flatten_cons, List.flatten_nil, List.append_nil]
  after_results_simp
  rfl

/-- The result buffer after the run is the loss of the arguments. -/
theorem result_eq (c : Dev nD) :
    Pipeline.afterTail₀ cfgs (dats m) 0 (V0 m) [hostOps1] c main_v21 = fun _ => G (X m c) (Y m c) := by
  unfold Pipeline.afterTail₀
  refine (tail_generic _).trans ?_
  rw [Pipeline.withArrays_arr spec0 launch0.win.arr_inj c _ _ 2, final_out]
  exact tail_out m c

/-- The run, read: the result at the loss of the arguments, the arguments unchanged. -/
theorem run : θ_run defs (onTc (τ := τ) (main (F := Ideal))) ⟨m, fun _ => 0, ρ⟩ fun r => ∀ c : Dev nD,
      r.2.mem ((c.tc : Thread nD τ).loc main_v21) = (fun _ => G (X m c) (Y m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v21 (by decide)).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Run

end
-- ==== Proof.RefSide.lean ====
/-
  The reference computes the loss `G` of Spec.lean.
  Its program masks, squares, takes logarithms and sums over whole `[2048, 2704]` arrays. Read at a cell `(b, c)`
  each of its five summed arrays is the per-cell quantity of Spec.lean (`face_ref`, `one_sub_face_ref`, `box_ref`,
  `bce_ref`, `bg_ref`): the slices and reshapes only pick channel 0, or channels 1 … 4, of a cell. Each total sum over
  the array is the double sum over cells. The reference counts the background cells by summing `1 − indicator`; by
  `Spec.bg_count` that is the number of cells minus the number of face cells, the form `G` uses.
-/
import proofs.«177025_j38285338476689_2_alg».proof.Defs
import proofs.«177025_j38285338476689_2_alg».proof.Proof.Gen.ReferenceIdeal.Read
import proofs.«177025_j38285338476689_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Bridge.RefSide

open Cert.ReferenceIdeal Cert.ReferenceIdeal.Read Cert.Bridge.Spec
open scoped BigOperators

/-- The argument arrays' type. -/
abbrev Arr := (⟨S2048x2704x5, .f32⟩ : BufTy).Contents (Elt Ideal)

/-! ## Which element of an argument a cell reads -/

/-- Channel 0 of cell `(b, c)`, through the slice `[:, :, 0:1]` and the reshape to `[2048, 2704]` (label array). -/
theorem idx_label (b : Fin 2048) (c : Fin 2704) : idx_main_v0 (idx_main_v1 (ix2 b c)) = ix3 b c 0 := by
  funext a; apply Fin.ext
  have hb := b.isLt; have hc := c.isLt
  match a with
  | ⟨0, _⟩ => show (b.val * 2704 + c.val) / 2704 = b.val; omega
  | ⟨1, _⟩ => show (b.val * 2704 + c.val) / 1 % 2704 = c.val; omega
  | ⟨2, _⟩ => rfl

/-- The same for the second read of the label array. -/
theorem idx_label' (b : Fin 2048) (c : Fin 2704) : idx_main_v20 (idx_main_v21 (ix2 b c)) = ix3 b c 0 := by
  funext a; apply Fin.ext
  have hb := b.isLt; have hc := c.isLt
  match a with
  | ⟨0, _⟩ => show (b.val * 2704 + c.val) / 2704 = b.val; omega
  | ⟨1, _⟩ => show (b.val * 2704 + c.val) / 1 % 2704 = c.val; omega
  | ⟨2, _⟩ => rfl

/-- The same for the confidence array. -/
theorem idx_conf (b : Fin 2048) (c : Fin 2704) : idx_main_v18 (idx_main_v19 (ix2 b c)) = ix3 b c 0 := by
  funext a; apply Fin.ext
  have hb := b.isLt; have hc := c.isLt
  match a with
  | ⟨0, _⟩ => show (b.val * 2704 + c.val) / 2704 = b.val; omega
  | ⟨1, _⟩ => show (b.val * 2704 + c.val) / 1 % 2704 = c.val; omega
  | ⟨2, _⟩ => rfl

/-- Box channel `k + 1` of cell `(b, c)`, through the slice `[:, :, 1:5]` and the sum over its last axis. -/
theorem idx_box0 (b : Fin 2048) (c : Fin 2704) (k : Fin 4) :
    idx_main_v9 (idx_main_v13 (ix2 b c) k) = ix3 b c ⟨k.val + 1, by omega⟩ := by
  funext a; apply Fin.ext
  match a with
  | ⟨0, _⟩ => rfl
  | ⟨1, _⟩ => rfl
  | ⟨2, _⟩ => show _ = k.val + 1; simp only [idx_main_v9, idx_main_v13]; omega

theorem idx_box1 (b : Fin 2048) (c : Fin 2704) (k : Fin 4) :
    idx_main_v10 (idx_main_v13 (ix2 b c) k) = ix3 b c ⟨k.val + 1, by omega⟩ := by
  funext a; apply Fin.ext
  match a with
  | ⟨0, _⟩ => rfl
  | ⟨1, _⟩ => rfl
  | ⟨2, _⟩ => show _ = k.val + 1; simp only [idx_main_v10, idx_main_v13]; omega

/-! ## The five summed arrays at a cell -/

/-- The face indicator. -/
theorem face_ref (x1 : Arr) (b : Fin 2048) (c : Fin 2704) : val_main_v4 (F := Ideal) x1 (ix2 b c) = faceAt x1 b c := by
  rw [val_main_v4_apply, val_main_v3_apply, val_main_v1_apply, val_main_v0_apply, val_main_v2_apply, val_main_cst_apply, idx_label]
  rfl

/-- One minus the face indicator. -/
theorem one_sub_face_ref (x1 : Arr) (b : Fin 2048) (c : Fin 2704) :
    val_main_v7 (F := Ideal) x1 (ix2 b c) = Ideal.ofBits .f32 0x3F800000#32 - faceAt x1 b c := by
  rw [val_main_v7_apply, face_ref, val_main_v6_apply, val_main_cst_1_apply]
  rfl

/-- The clamped logarithm of the confidence. -/
theorem logC_ref (x0 : Arr) (b : Fin 2048) (c : Fin 2704) : val_main_v24 (F := Ideal) x0 (ix2 b c) = logC (x0 (ix3 b c 0)) := by
  rw [val_main_v24_apply, val_main_v22_apply, val_main_v19_apply, val_main_v18_apply, val_main_v23_apply, val_main_cst_6_apply, idx_conf]
  rfl

/-- The clamped logarithm of the complement. -/
theorem logNC_ref (x0 : Arr) (b : Fin 2048) (c : Fin 2704) : val_main_v28 (F := Ideal) x0 (ix2 b c) = logNC (x0 (ix3 b c 0)) := by
  rw [val_main_v28_apply, val_main_v26_apply, val_main_v25_apply, val_main_v19_apply, val_main_v18_apply, val_main_v27_apply,
    val_main_cst_7_apply, idx_conf]
  rfl

/-- The label confidence. -/
theorem label_ref (x1 : Arr) (b : Fin 2048) (c : Fin 2704) : val_main_v21 (F := Ideal) x1 (ix2 b c) = x1 (ix3 b c 0) := by
  rw [val_main_v21_apply, val_main_v20_apply, idx_label']

/-- The indicator times the squared box error: the reference sums the four squares from zero. -/
theorem box_ref (x0 x1 : Arr) (b : Fin 2048) (c : Fin 2704) : val_main_v14 (F := Ideal) x0 x1 (ix2 b c) = boxAt x0 x1 b c := by
  rw [val_main_v14_apply, face_ref, val_main_v13_apply, Fin.sum_univ_four]
  simp only [val_main_v12_apply, val_main_v11_apply, val_main_v9_apply, val_main_v10_apply, idx_box0, idx_box1,
    val_main_cst_3_apply, Ideal.ofBits_def, Ideal.ofBits_zero_f32, zero_add, Ideal.mulf_def, Ideal.subf_def]
  rfl

/-- The indicator times the cross-entropy. -/
theorem bce_ref (x0 x1 : Arr) (b : Fin 2048) (c : Fin 2704) : val_main_v35 (F := Ideal) x0 x1 (ix2 b c) = bceAt x0 x1 b c := by
  rw [val_main_v35_apply, face_ref, val_main_v34_apply, val_main_v33_apply, val_main_v29_apply, val_main_v32_apply,
    val_main_v31_apply, label_ref, logC_ref, logNC_ref, val_main_v30_apply, val_main_cst_8_apply]
  rfl

/-- The background term. -/
theorem bg_ref (x0 x1 : Arr) (b : Fin 2048) (c : Fin 2704) : val_main_v41 (F := Ideal) x0 x1 (ix2 b c) = bgAt x0 x1 b c := by
  rw [val_main_v41_apply, val_main_v39_apply, face_ref, val_main_v40_apply, logNC_ref, val_main_v38_apply, val_main_cst_10_apply]
  rfl

/-! ## The totals -/

/-- A total sum over a `[2048, 2704]` array whose entries are a per-cell quantity, from the zero the reference starts
    from, is that quantity's sum over the cells. -/
theorem total (v : S2048x2704.Idx → EReal) (f : Fin 2048 → Fin 2704 → EReal) (h : ∀ b c, v (ix2 b c) = f b c) :
    Ideal.ofBits .f32 0x00000000#32 + ∑ j : S2048x2704.Idx, v j = tot f := by
  rw [Ideal.ofBits_zero_f32, zero_add, sum_idx2]
  exact Finset.sum_congr rfl fun b _ => Finset.sum_congr rfl fun c _ => h b c

/-- The reference's result is the loss `G` of its two arguments. -/
theorem ref_eq (x0 x1 : Arr) : val_main_v50 (F := Ideal) x0 x1 = fun _ => G x0 x1 := by
  funext i
  have e5 : ∀ i, val_main_v5 (F := Ideal) x1 i = tot (faceAt x1) := fun i =>
    (val_main_v5_apply x1 i).trans (total _ _ (face_ref x1))
  have e8 : ∀ i, val_main_v8 (F := Ideal) x1 i = Ideal.ofBits .f32 0x4AA90000#32 - tot (faceAt x1) := fun i =>
    ((val_main_v8_apply x1 i).trans (total _ _ (one_sub_face_ref x1))).trans (bg_count x1)
  have e15 : ∀ i, val_main_v15 (F := Ideal) x0 x1 i = tot (boxAt x0 x1) := fun i =>
    (val_main_v15_apply x0 x1 i).trans (total _ _ (box_ref x0 x1))
  have e36 : ∀ i, val_main_v36 (F := Ideal) x0 x1 i = tot (bceAt x0 x1) := fun i =>
    (val_main_v36_apply x0 x1 i).trans (total _ _ (bce_ref x0 x1))
  have e42 : ∀ i, val_main_v42 (F := Ideal) x0 x1 i = tot (bgAt x0 x1) := fun i =>
    (val_main_v42_apply x0 x1 i).trans (total _ _ (bg_ref x0 x1))
  rw [val_main_v50_apply, val_main_v48_apply, val_main_v49_apply, val_main_v46_apply, val_main_v47_apply, val_main_v45_apply,
    val_main_v44_apply, val_main_v17_apply, val_main_v16_apply, val_main_v37_apply, val_main_v43_apply, e5, e8, e15, e36, e42]
  rfl

end Cert.Bridge.RefSide

end
-- ==== Proof.lean ====
/-
  The certificate's five claims.
  • The three frames: the word-level kernel's and the idealized kernel's are the generated frame certificates; the
    reference has no kernel, and its frame is its generated run with the result dropped.
  • The idealization rewrote nothing, so `preserves` is trivial.
  • `algebraic`: over the extended reals both programs end with the loss `G` of Spec.lean of their arguments. The
    kernel accumulates four sums tile by tile — 16 batch tiles times 169 cell tiles of 128 · 16 cells —, sums the 16
    per-batch-tile results on the host and counts the background cells as (number of cells) − (number of face cells);
    the reference sums over all cells at once and counts the background cells by summing `1 − indicator`. The sums
    agree by regrouping (commutativity and associativity of the extended reals' addition), the counts because the
    indicators are real numbers.
-/
import proofs.«177025_j38285338476689_2_alg».proof.Defs
import proofs.«177025_j38285338476689_2_alg».proof.Proof.Gen.Kernel
import proofs.«177025_j38285338476689_2_alg».proof.Proof.Gen.Kernel.Skeleton
import proofs.«177025_j38285338476689_2_alg».proof.Proof.Gen.Kernel.Launch
import proofs.«177025_j38285338476689_2_alg».proof.Proof.Gen.Kernel.Points
import proofs.«177025_j38285338476689_2_alg».proof.Proof.Gen.Kernel.Frame
import proofs.«177025_j38285338476689_2_alg».proof.Proof.Gen.KernelIdeal
import proofs.«177025_j38285338476689_2_alg».proof.Proof.Gen.KernelIdeal.Skeleton
import proofs.«177025_j38285338476689_2_alg».proof.Proof.Gen.KernelIdeal.Launch
import proofs.«177025_j38285338476689_2_alg».proof.Proof.Gen.KernelIdeal.Points
import proofs.«177025_j38285338476689_2_alg».proof.Proof.Gen.KernelIdeal.Frame
import proofs.«177025_j38285338476689_2_alg».proof.Proof.Gen.ReferenceIdeal
import proofs.«177025_j38285338476689_2_alg».proof.Proof.Gen.ReferenceIdeal.Run
import proofs.«177025_j38285338476689_2_alg».proof.Proof.Gen.ReferenceIdeal.Read
import proofs.«177025_j38285338476689_2_alg».proof.Proof.Gen.Pre_finite_inputs
import proofs.«177025_j38285338476689_2_alg».proof.Proof.KernelRun
import proofs.«177025_j38285338476689_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end at the loss `G` of the arguments. -/
theorem algebraic : Cert.algebraic_KernelIdeal_ReferenceIdeal := by
  intro m ρ m' ρ' _ hagree
  refine ⟨fun c => fun _ => Cert.Bridge.Spec.G (Cert.KernelIdeal.Totals.X m c) (Cert.KernelIdeal.Totals.Y m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.Bridge.RefSide.ref_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
